-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S_ : Shape := ⟨0, ![]⟩

class Facts : Prop where
  bcast_S_S4096x20480 : S_.BroadcastsInDim S4096x20480 (![] : Fin 0 → Fin S4096x20480.rank)
  reducesTo_S4096x20480_S_d0_1 : S4096x20480.ReducesTo [0, 1] S_
  h_S_ : 0 < S_.numel
  bcast_S_S2x20480 : S_.BroadcastsInDim S2x20480 (![] : Fin 0 → Fin S2x20480.rank)
  reducesTo_S2x20480_S_d0_1 : S2x20480.ReducesTo [0, 1] S_
  bcast_S_S128x20480 : S_.BroadcastsInDim S128x20480 (![] : Fin 0 → Fin S128x20480.rank)
  reducesTo_S128x20480_S_d0_1 : S128x20480.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg4 : FVec F S128 .f32) (main_arg5 : FVec F S2x128 .f32) (main_v13 : IVec S_ 1) (main_v16 : IVec S128x20480 1) : IVec S_ 1 :=
  let main_c_5 : IVec S_ 1 := constantI S_ 1 1#1
  let main_v17 : IVec S_ 1 := (fun x v => Host.reduce IntOp.andi x v reducesTo_S128x20480_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S4096x20480 .f32) (main_arg1 : FVec F S4096x20480 .f32) (main_arg2 : FVec F S2x20480 .f32) (main_arg3 : FVec F S128x20480 .f32) (main_arg4 : FVec F S128 .f32) (main_arg5 : FVec F S2x128 .f32) : IVec S_ 1 :=
  let main_v0 : FVec F S4096x20480 .f32 := Host.absf main_arg0
  let main_cst : FVec F S_ .f32 := constant S_ .f32 0x7F800000#32
  let main_v1 : FVec F S4096x20480 .f32 := broadcastInDim S4096x20480 ![] bcast_S_S4096x20480 main_cst
  let main_v2 : IVec S4096x20480 1 := cmpf .olt main_v0 main_v1
  let main_c : IVec S_ 1 := constantI S_ 1 1#1
  let main_v3 : IVec S_ 1 := (fun x v => Host.reduce IntOp.andi x v reducesTo_S4096x20480_S_d0_1 h_S_) main_v2 main_c
  let main_v4 : FVec F S4096x20480 .f32 := Host.absf main_arg1
  let main_cst_0 : FVec F S_ .f32 := constant S_ .f32 0x7F800000#32
  let main_v5 : FVec F S4096x20480 .f32 := broadcastInDim S4096x20480 ![] bcast_S_S4096x20480 main_cst_0
  let main_v6 : IVec S4096x20480 1 := cmpf .olt main_v4 main_v5
  let main_c_1 : IVec S_ 1 := constantI S_ 1 1#1
  let main_v7 : IVec S_ 1 := (fun x v => Host.reduce IntOp.andi x v reducesTo_S4096x20480_S_d0_1 h_S_) main_v6 main_c_1
  let main_v8 : IVec S_ 1 := andi main_v3 main_v7
  let main_v9 : FVec F S2x20480 .f32 := Host.absf main_arg2
  let main_cst_2 : FVec F S_ .f32 := constant S_ .f32 0x7F800000#32
  let main_v10 : FVec F S2x20480 .f32 := broadcastInDim S2x20480 ![] bcast_S_S2x20480 main_cst_2
  let main_v11 : IVec S2x20480 1 := cmpf .olt main_v9 main_v10
  let main_c_3 : IVec S_ 1 := constantI S_ 1 1#1
  let main_v12 : IVec S_ 1 := (fun x v => Host.reduce IntOp.andi x v reducesTo_S2x20480_S_d0_1 h_S_) main_v11 main_c_3
  let main_v13 : IVec S_ 1 := andi main_v8 main_v12
  let main_v14 : FVec F S128x20480 .f32 := Host.absf main_arg3
  let main_cst_4 : FVec F S_ .f32 := constant S_ .f32 0x7F800000#32
  let main_v15 : FVec F S128x20480 .f32 := broadcastInDim S128x20480 ![] bcast_S_S128x20480 main_cst_4
  let main_v16 : IVec S128x20480 1 := cmpf .olt main_v14 main_v15
  fn_part1 (F := F) main_arg4 main_arg5 main_v13 main_v16
-- ==== Kernel.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S_ : Shape := ⟨0, ![]⟩
abbrev S20480x256 : Shape := ⟨2, ![20480, 256]⟩
abbrev S20480x128 : Shape := ⟨2, ![20480, 128]⟩
abbrev S1 : Shape := ⟨1, ![1]⟩
abbrev S20480x2 : Shape := ⟨2, ![20480, 2]⟩
abbrev S128x128 : Shape := ⟨2, ![128, 128]⟩
abbrev S128x2 : Shape := ⟨2, ![128, 2]⟩
abbrev S1x128 : Shape := ⟨2, ![1, 128]⟩
abbrev S4096x2 : Shape := ⟨2, ![4096, 2]⟩
abbrev S256x4096 : Shape := ⟨2, ![256, 4096]⟩
abbrev S4096x256 : Shape := ⟨2, ![4096, 256]⟩
abbrev S256x2 : Shape := ⟨2, ![256, 2]⟩
abbrev S256x256 : Shape := ⟨2, ![256, 256]⟩
abbrev S256x128 : Shape := ⟨2, ![256, 128]⟩

abbrev nBuf : Space → Nat
  | .hbm => 26
  | .vmem => 12
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S_, .f32⟩
  | .hbm, ⟨7, _⟩ => ⟨S20480x256, .f32⟩
  | .hbm, ⟨8, _⟩ => ⟨S20480x128, .f32⟩
  | .hbm, ⟨9, _⟩ => ⟨S_, .i32⟩
  | .hbm, ⟨10, _⟩ => ⟨S1, .i32⟩
  | .hbm, ⟨11, _⟩ => ⟨S20480x256, .f32⟩
  | .hbm, ⟨12, _⟩ => ⟨S20480x2, .f32⟩
  | .hbm, ⟨13, _⟩ => ⟨S_, .i32⟩
  | .hbm, ⟨14, _⟩ => ⟨S1, .i32⟩
  | .hbm, ⟨15, _⟩ => ⟨S20480x256, .f32⟩
  | .hbm, ⟨16, _⟩ => ⟨S20480x256, .bf16⟩
  | .hbm, ⟨17, _⟩ => ⟨S_, .f32⟩
  | .hbm, ⟨18, _⟩ => ⟨S128x128, .f32⟩
  | .hbm, ⟨19, _⟩ => ⟨S128x2, .f32⟩
  | .hbm, ⟨20, _⟩ => ⟨S_, .i32⟩
  | .hbm, ⟨21, _⟩ => ⟨S1, .i32⟩
  | .hbm, ⟨22, _⟩ => ⟨S128x128, .f32⟩
  | .hbm, ⟨23, _⟩ => ⟨S128x128, .bf16⟩
  | .hbm, ⟨24, _⟩ => ⟨S1x128, .f32⟩
  | .hbm, ⟨25, _⟩ => ⟨S4096x2, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x256, .bf16⟩
  | .local _ .vmem, ⟨5, _⟩ => ⟨S4096x256, .bf16⟩
  | .local _ .vmem, ⟨6, _⟩ => ⟨S128x128, .bf16⟩
  | .local _ .vmem, ⟨7, _⟩ => ⟨S1x128, .f32⟩
  | .local _ .vmem, ⟨8, _⟩ => ⟨S256x2, .f32⟩
  | .local _ .vmem, ⟨9, _⟩ => ⟨S256x2, .f32⟩
  | .local _ .vmem, ⟨10, _⟩ => ⟨S256x256, .f32⟩
  | .local _ .vmem, ⟨11, _⟩ => ⟨S256x256, .f32⟩
  | _, _ => ⟨S4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v21 : BitVec 1 := Scalar.cmpi .eq arg1 c4_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S20480x256 : S_.BroadcastsInDim S20480x256 (![] : Fin 0 → Fin S20480x256.rank)
  transposes_S128x20480_S20480x128_1_0 : S128x20480.Transposes [1, 0] S20480x128
  bcast_S_S1 : S_.BroadcastsInDim S1 (![] : Fin 0 → Fin S1.rank)
  transposes_S2x20480_S20480x2_1_0 : S2x20480.Transposes [1, 0] S20480x2
  bitsLt_bf16_f32 : FTy.bits .bf16 < FTy.bits .f32
  bcast_S_S128x128 : S_.BroadcastsInDim S128x128 (![] : Fin 0 → Fin S128x128.rank)
  transposes_S2x128_S128x2_1_0 : S2x128.Transposes [1, 0] S128x2
  shapeCasts_S128_S1x128 : S128.ShapeCasts S1x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x4096_S256x4096_0_0 : ∀ a, (![0, 0] : Fin 2 → Nat) a + S256x4096.size a ≤ S256x4096.size a
  h_S256x4096 : 0 < S256x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S256x256_o0_0_S256x128 : S256x256.Slices ![0, 0] S256x128
  slices_S256x256_o0_128_S256x2 : S256x256.Slices ![0, 128] S256x2
  broadcasts_S1x128_S256x128 : S1x128.Broadcasts S256x128
  slices_S256x128_o0_0_S256x2 : S256x128.Slices ![0, 0] S256x2
  inb_S256x2_S256x2_0_0 : ∀ a, (![0, 0] : Fin 2 → Nat) a + S256x2.size a ≤ S256x2.size a
  h_S256x2 : 0 < S256x2.numel
  scatter_S20480x256_S1_S20480x128_01_n_1_0_wf : ScatterDims.WF S20480x256 S1 S20480x128 [0, 1] [] [1] 0
  scatter_S20480x256_S1_S20480x2_01_n_1_0_wf : ScatterDims.WF S20480x256 S1 S20480x2 [0, 1] [] [1] 0
  scatter_S128x128_S1_S128x2_01_n_1_0_wf : ScatterDims.WF S128x128 S1 S128x2 [0, 1] [] [1] 0
  dot_S256x4096_S4096x256_S256x256_1_0_0_1_n_n_wf : DotDims.WF S256x4096 S4096x256 S256x256 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x20480.size a
  hwx0_0 : ∀ i : grid0.Coords, EltTy.bits .f32 = 32 ∨ (Rect.block (s := S4096x20480) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x20480.size a
  hwx0_1 : ∀ i : grid0.Coords, EltTy.bits .f32 = 32 ∨ (Rect.block (s := S4096x20480) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S20480x256.size a
  hwx0_2 : ∀ i : grid0.Coords, EltTy.bits .bf16 = 32 ∨ (Rect.block (s := S20480x256) S4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S4096x2.size a
  hwx0_5 : ∀ i : grid0.Coords, EltTy.bits .f32 = 32 ∨ (Rect.block (s := S4096x2) S256x2.size (cc0_transform_5 i) (hinb0_5 i)).WholeWords (EltTy.packing .f32)

variable [Facts₀]

def scatter_S20480x256_S1_S20480x128_01_n_1_0 : ScatterDims S20480x256 S1 S20480x128 where
  updateWindowDims := [0, 1]
  insertedWindowDims := []
  scatterDimsToOperandDims := [1]
  indexVectorDim := 0
  wf := scatter_S20480x256_S1_S20480x128_01_n_1_0_wf
def scatter_S20480x256_S1_S20480x2_01_n_1_0 : ScatterDims S20480x256 S1 S20480x2 where
  updateWindowDims := [0, 1]
  insertedWindowDims := []
  scatterDimsToOperandDims := [1]
  indexVectorDim := 0
  wf := scatter_S20480x256_S1_S20480x2_01_n_1_0_wf
def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S20480x2 : Shape := ⟨2, ![20480, 2]⟩
abbrev S4096x2 : Shape := ⟨2, ![4096, 2]⟩
abbrev S20480x128 : Shape := ⟨2, ![20480, 128]⟩
abbrev S4096x128 : Shape := ⟨2, ![4096, 128]⟩
abbrev S1x128 : Shape := ⟨2, ![1, 128]⟩
abbrev S_ : Shape := ⟨0, ![]⟩
abbrev S128x2 : Shape := ⟨2, ![128, 2]⟩

abbrev nBuf : Space → Nat
  | .hbm => 43
  | .vmem => 0
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S20480x2, .f32⟩
  | .hbm, ⟨7, _⟩ => ⟨S4096x2, .f32⟩
  | .hbm, ⟨8, _⟩ => ⟨S20480x128, .f32⟩
  | .hbm, ⟨9, _⟩ => ⟨S4096x128, .f32⟩
  | .hbm, ⟨10, _⟩ => ⟨S1x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S128x2, .f32⟩
  | .hbm, ⟨22, _⟩ => ⟨S4096x2, .f32⟩
  | .hbm, ⟨23, _⟩ => ⟨S20480x2, .f32⟩
  | .hbm, ⟨24, _⟩ => ⟨S4096x2, .f32⟩
  | .hbm, ⟨25, _⟩ => ⟨S20480x128, .f32⟩
  | .hbm, ⟨26, _⟩ => ⟨S4096x128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x128, .f32⟩
  | .hbm, ⟨34, _⟩ => ⟨S4096x128, .f32⟩
  | .hbm, ⟨35, _⟩ => ⟨S_, .f32⟩
  | .hbm, ⟨36, _⟩ => ⟨S4096x128, .f32⟩
  | .hbm, ⟨37, _⟩ => ⟨S4096x128, .f32⟩
  | .hbm, ⟨38, _⟩ => ⟨S128x2, .f32⟩
  | .hbm, ⟨39, _⟩ => ⟨S4096x2, .f32⟩
  | .hbm, ⟨40, _⟩ => ⟨S4096x2, .f32⟩
  | .hbm, ⟨41, _⟩ => ⟨S4096x2, .f32⟩
  | .hbm, ⟨42, _⟩ => ⟨S4096x2, .f32⟩
  | _, _ => ⟨S4096x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  transposes_S2x20480_S20480x2_1_0 : S2x20480.Transposes [1, 0] S20480x2
  transposes_S128x20480_S20480x128_1_0 : S128x20480.Transposes [1, 0] S20480x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S2x128_S128x2_1_0 : S2x128.Transposes [1, 0] S128x2
  dot_S4096x20480_S20480x2_S4096x2_1_0_0_1_n_n_wf : DotDims.WF S4096x20480 S20480x2 S4096x2 [1] [0] [0] [1] [] []
  dot_S4096x20480_S20480x128_S4096x128_1_0_0_1_n_n_wf : DotDims.WF S4096x20480 S20480x128 S4096x128 [1] [0] [0] [1] [] []
  dot_S4096x128_S128x2_S4096x2_1_0_0_1_n_n_wf : DotDims.WF S4096x128 S128x2 S4096x2 [1] [0] [0] [1] [] []

variable [Facts₀]

def dot_S4096x20480_S20480x2_S4096x2_1_0_0_1_n_n : DotDims S4096x20480 S20480x2 S4096x2 where
  lhsContracting := [1]
  rhsContracting := [0]
  lhsNonContracting := [0]
  rhsNonContracting := [1]
  lhsBatch := []
  rhsBatch := []
  wf := dot_S4096x20480_S20480x2_S4096x2_1_0_0_1_n_n_wf
def dot_S4096x20480_S20480x128_S4096x128_1_0_0_1_n_n : DotDims S4096x20480 S20480x128 S4096x128 where
  lhsContracting := [1]
  rhsContracting := [0]
  lhsNonContracting := [0]
  rhsNonContracting := [1]
  lhsBatch := []
  rhsBatch := []
  wf := dot_S4096x20480_S20480x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

class Facts : Prop extends Facts₀ where

variable [Facts]
-- ==== Proof.Spec.lean ====
/-
  The function both programs compute, index by index, on the extended reals.

  For a batch of feature vectors x (one of the two sides), with weights P (2 rows), A (128 rows), a bias b and an
  output weight O (2 rows of 128):

      psq x (r, j)   = Σ_k x (r, k) · P (j, k)                            the piece-square term,
      acc x (r, a)   = Σ_k x (r, k) · A (a, k)                            the accumulator,
      hid x (r, a)   = min 1 (max 0 (acc x (r, a) + b a))                 clipped to [0, 1],
      pos x (r, j)   = Σ_a hid x (r, a) · O (j, a)                        the positional term,

  and the result is (psq w − psq v) + (pos w − pos v) of the two sides w and v. The sums run over the whole feature
  axis (20480 entries) and over the 128 accumulator entries; the constants 0 and 1 are kept as the binary words both
  programs print, so that they are never evaluated.
-/
import Idealize.ShloMosaic.PureOps.Ideal
import Idealize.ShloMosaic.Lib.ValueIdx

noncomputable section

namespace Cert.Spec

open Idealize.ShloMosaic Idealize.ShloMosaic.ValueIdx
open scoped BigOperators

/-- The shapes of the six arguments and of the result. -/
abbrev SX : Shape := ⟨2, ![4096, 20480]⟩
abbrev SP : Shape := ⟨2, ![2, 20480]⟩
abbrev SA : Shape := ⟨2, ![128, 20480]⟩
abbrev SB : Shape := ⟨1, ![128]⟩
abbrev SO : Shape := ⟨2, ![2, 128]⟩
abbrev SR : Shape := ⟨2, ![4096, 2]⟩

/-- The lower and upper clipping bounds, as the words both programs print. -/
abbrev lo : EReal := Ideal.ofBits .f32 0x00000000#32
abbrev hi : EReal := Ideal.ofBits .f32 0x3F800000#32

/-- The piece-square term of one side: row r of x against row j of P. -/
def psq (x : SX.Idx → EReal) (P : SP.Idx → EReal) (r : Fin 4096) (j : Fin 2) : EReal :=
  ∑ k : Fin 20480, x (ix2 r k) * P (ix2 j k)

/-- The accumulator of one side: row r of x against row a of A. -/
def acc (x : SX.Idx → EReal) (A : SA.Idx → EReal) (r : Fin 4096) (a : Fin 128) : EReal :=
  ∑ k : Fin 20480, x (ix2 r k) * A (ix2 a k)

/-- The accumulator plus the bias, clipped to [0, 1]. -/
def hid (x : SX.Idx → EReal) (A : SA.Idx → EReal) (b : SB.Idx → EReal) (r : Fin 4096) (a : Fin 128) : EReal :=
  min hi (max lo (acc x A r a + b (ix1 a)))

/-- The positional term of one side: the clipped accumulator against row j of O. -/
def pos (x : SX.Idx → EReal) (A : SA.Idx → EReal) (b : SB.Idx → EReal) (O : SO.Idx → EReal) (r : Fin 4096) (j : Fin 2) : EReal :=
  ∑ a : Fin 128, hid x A b r a * O (ix2 j a)

/-- The result at (r, j): the difference of the two sides' piece-square terms plus the difference of their positional
    terms. -/
def out (w v : SX.Idx → EReal) (P : SP.Idx → EReal) (A : SA.Idx → EReal) (b : SB.Idx → EReal) (O : SO.Idx → EReal)
    (r : Fin 4096) (j : Fin 2) : EReal :=
  (psq w P r j - psq v P r j) + (pos w A b O r j - pos v A b O r j)

/-- The result array. -/
def G (w v : SX.Idx → EReal) (P : SP.Idx → EReal) (A : SA.Idx → EReal) (b : SB.Idx → EReal) (O : SO.Idx → EReal) :
    SR.Idx → EReal :=
  fun i => out w v P A b O (i 0) (i 1)

theorem G_apply (w v : SX.Idx → EReal) (P : SP.Idx → EReal) (A : SA.Idx → EReal) (b : SB.Idx → EReal) (O : SO.Idx → EReal)
    (r : Fin 4096) (j : Fin 2) : G w v P A b O (ix2 r j) = out w v P A b O r j := rfl

end Cert.Spec

end
-- ==== Proof.RefSpec.lean ====
/-
  The reference computes the specification: its result term, read at an index, is `Spec.G` of the six arguments.

  The reference's four matrix products are sums over the contracted axis of an argument read at (row, k) against a
  transposed weight read at (k, column), that is the weight itself at (column, k); the bias is a vector laid out as a
  row and repeated down the batch; the clip is a maximum with 0 followed by a minimum with 1. Each stage is read at an
  index by the generated read lemmas; what is proved here is that the composed index functions are the plain
  coordinates of the specification.
-/
import proofs.«133950_j43525198577726_2_alg».proof.Proof.Gen.ReferenceIdeal.Read
import proofs.«133950_j43525198577726_2_alg».proof.Proof.Spec

noncomputable section

namespace Cert.ReferenceIdeal.RefSpec

open Cert.ReferenceIdeal Cert.ReferenceIdeal.Read Idealize.ShloMosaic Idealize.ShloMosaic.ValueIdx
open scoped BigOperators

variable (x0 x1 : S4096x20480.Idx → EReal) (x2 : S2x20480.Idx → EReal) (x3 : S128x20480.Idx → EReal)
  (x4 : S128.Idx → EReal) (x5 : S2x128.Idx → EReal)

/-- The first side's piece-square product at (r, j). -/
theorem psq_first (r : Fin 4096) (j : Fin 2) : val_main_v1 (F := Ideal) x0 x2 (ix2 r j) = Spec.psq x0 x2 r j := by
  rw [val_main_v1_apply]
  unfold Spec.psq
  refine Finset.sum_congr rfl fun k _ => ?_
  rw [val_main_v0_apply]
  have e1 : lidx_main_v1 (ix2 r j) k = ix2 r k := funext fun a => Fin.ext (by match a with | ⟨0, _⟩ => rfl | ⟨1, _⟩ => rfl)
  have e2 : idx_main_v0 (ridx_main_v1 (ix2 r j) k) = ix2 j k := funext fun a => Fin.ext (by match a with | ⟨0, _⟩ => rfl | ⟨1, _⟩ => rfl)
  rw [e1, e2]

/-- The second side's piece-square product at (r, j). -/
theorem psq_second (r : Fin 4096) (j : Fin 2) : val_main_v11 (F := Ideal) x1 x2 (ix2 r j) = Spec.psq x1 x2 r j := by
  rw [val_main_v11_apply]
  unfold Spec.psq
  refine Finset.sum_congr rfl fun k _ => ?_
  rw [val_main_v10_apply]
  have e1 : lidx_main_v11 (ix2 r j) k = ix2 r k := funext fun a => Fin.ext (by match a with | ⟨0, _⟩ => rfl | ⟨1, _⟩ => rfl)
  have e2 : idx_main_v10 (ridx_main_v11 (ix2 r j) k) = ix2 j k := funext fun a => Fin.ext (by match a with | ⟨0, _⟩ => rfl | ⟨1, _⟩ => rfl)
  rw [e1, e2]

/-- The first side's accumulator product at (r, a). -/
theorem acc_first (r : Fin 4096) (a : Fin 128) : val_main_v3 (F := Ideal) x0 x3 (ix2 r a) = Spec.acc x0 x3 r a := by
  rw [val_main_v3_apply]
  unfold Spec.acc
  refine Finset.sum_congr rfl fun k _ => ?_
  rw [val_main_v2_apply]
  have e1 : lidx_main_v3 (ix2 r a) k = ix2 r k := funext fun b => Fin.ext (by match b with | ⟨0, _⟩ => rfl | ⟨1, _⟩ => rfl)
  have e2 : idx_main_v2 (ridx_main_v3 (ix2 r a) k) = ix2 a k := funext fun b => Fin.ext (by match b with | ⟨0, _⟩ => rfl | ⟨1, _⟩ => rfl)
  rw [e1, e2]

/-- The second side's accumulator product at (r, a). -/
theorem acc_second (r : Fin 4096) (a : Fin 128) : val_main_v13 (F := Ideal) x1 x3 (ix2 r a) = Spec.acc x1 x3 r a := by
  rw [val_main_v13_apply]
  unfold Spec.acc
  refine Finset.sum_congr rfl fun k _ => ?_
  rw [val_main_v12_apply]
  have e1 : lidx_main_v13 (ix2 r a) k = ix2 r k := funext fun b => Fin.ext (by match b with | ⟨0, _⟩ => rfl | ⟨1, _⟩ => rfl)
  have e2 : idx_main_v12 (ridx_main_v13 (ix2 r a) k) = ix2 a k := funext fun b => Fin.ext (by match b with | ⟨0, _⟩ => rfl | ⟨1, _⟩ => rfl)
  rw [e1, e2]

/-- The first side's clipped accumulator at (r, a): the bias row repeated down the batch is the bias at a. -/
theorem hid_first (r : Fin 4096) (a : Fin 128) : val_main_v7 (F := Ideal) x0 x3 x4 (ix2 r a) = Spec.hid x0 x3 x4 r a := by
  rw [val_main_v7_apply, val_main_call0_v4_apply, val_main_call0_v3_apply, val_main_cst_0_apply, val_main_call0_v2_apply,
    val_main_call0_v1_apply, val_main_call0_v0_apply, val_main_cst_apply, val_main_v6_apply, val_main_v5_apply,
    val_main_v4_apply, acc_first]
  have e : idx_main_v4 (idx_main_v5 (ix2 r a)) = ix1 a := funext fun b => Fin.ext (by match b with | ⟨0, _⟩ => rfl)
  rw [e]
  rfl

/-- The second side's clipped accumulator at (r, a). -/
theorem hid_second (r : Fin 4096) (a : Fin 128) : val_main_v17 (F := Ideal) x1 x3 x4 (ix2 r a) = Spec.hid x1 x3 x4 r a := by
  rw [val_main_v17_apply, val_main_call1_v4_apply, val_main_call1_v3_apply, val_main_cst_2_apply, val_main_call1_v2_apply,
    val_main_call1_v1_apply, val_main_call1_v0_apply, val_main_cst_1_apply, val_main_v16_apply, val_main_v15_apply,
    val_main_v14_apply, acc_second]
  have e : idx_main_v14 (idx_main_v15 (ix2 r a)) = ix1 a := funext fun b => Fin.ext (by match b with | ⟨0, _⟩ => rfl)
  rw [e]
  rfl

/-- The first side's positional product at (r, j). -/
theorem pos_first (r : Fin 4096) (j : Fin 2) : val_main_v9 (F := Ideal) x0 x3 x4 x5 (ix2 r j) = Spec.pos x0 x3 x4 x5 r j := by
  rw [val_main_v9_apply]
  unfold Spec.pos
  refine Finset.sum_congr rfl fun k _ => ?_
  rw [val_main_v8_apply]
  have e1 : lidx_main_v9 (ix2 r j) k = ix2 r k := funext fun b => Fin.ext (by match b with | ⟨0, _⟩ => rfl | ⟨1, _⟩ => rfl)
  have e2 : idx_main_v8 (ridx_main_v9 (ix2 r j) k) = ix2 j k := funext fun b => Fin.ext (by match b with | ⟨0, _⟩ => rfl | ⟨1, _⟩ => rfl)
  rw [e1, e2, hid_first]

/-- The second side's positional product at (r, j). -/
theorem pos_second (r : Fin 4096) (j : Fin 2) : val_main_v19 (F := Ideal) x1 x3 x4 x5 (ix2 r j) = Spec.pos x1 x3 x4 x5 r j := by
  rw [val_main_v19_apply]
  unfold Spec.pos
  refine Finset.sum_congr rfl fun k _ => ?_
  rw [val_main_v18_apply]
  have e1 : lidx_main_v19 (ix2 r j) k = ix2 r k := funext fun b => Fin.ext (by match b with | ⟨0, _⟩ => rfl | ⟨1, _⟩ => rfl)
  have e2 : idx_main_v18 (ridx_main_v19 (ix2 r j) k) = ix2 j k := funext fun b => Fin.ext (by match b with | ⟨0, _⟩ => rfl | ⟨1, _⟩ => rfl)
  rw [e1, e2, hid_second]

/-- The reference's result is the specification's array. -/
theorem result_eq : val_main_v22 (F := Ideal) x0 x1 x2 x3 x4 x5 = Spec.G x0 x1 x2 x3 x4 x5 := by
  funext i
  obtain ⟨r, j, rfl⟩ : ∃ (r : Fin 4096) (j : Fin 2), i = ix2 r j := ⟨i 0, i 1, eq_ix2 i⟩
  rw [val_main_v22_apply, val_main_v20_apply, val_main_v21_apply, psq_first, psq_second, pos_first, pos_second]
  rfl

end Cert.ReferenceIdeal.RefSpec

end
-- ==== Proof.Pieces.lean ====
/-
  What one run of the kernel body leaves behind, as values.

  The body keeps two running sums (one per side) in two scratch blocks of 256 × 256. At the first step of a row tile it
  stores zeros, reads them back and stores zeros plus the step's product; at every later step it stores what the step
  before left plus the step's product; at the last step it also stores the output block, computed from the two
  running sums it has just stored. Each of these is one store covering its whole block, so what the block holds
  afterwards is that store's value, a function of the blocks the body loaded.
-/
import proofs.«133950_j43525198577726_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4096x256 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S256x2 .f32) (harg7 : arg7.IsWhole) (arg8 : Memref sig .tc .vmem S256x256 .f32) (harg8 : arg8.IsWhole) (arg9 : Memref sig .tc .vmem S256x256 .f32) (harg9 : arg9.IsWhole)
  (x0 : Vec F S256x4096 .f32) (x1 : Vec F S256x4096 .f32) (x2 : Vec F S4096x256 .bf16) (x3 : Vec F S128x128 .bf16) (x4 : Vec F S1x128 .f32)

/-- First step, first side: zeros, then zeros plus the product. -/
theorem first_w (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = k0_pay4 x2 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x256) hz, View.readCov_unit_zero (S := S256x256) _ hz]
  simp only [View.readAt_eq_ld, harg2.read_unread, harg3.read_unread, harg4.read_unread, harg5.read_unread, harg6.read_unread, harg8.read_unread, harg9.read_unread, View.ld_unit_zero (S := S256x4096) hz, View.ld_unit_zero (S := S4096x256) hz, View.ld_unit_zero (S := S256x256) hz, View.ld_unit_zero (S := S128x128) hz, View.ld_unit_zero (S := S1x128) hz]

/-- First step, second side. -/
theorem first_b (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4 = k0_pay5 x2 x1 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x256) hz, View.readCov_unit_zero (S := S256x256) _ hz]
  simp only [View.readAt_eq_ld, harg2.read_unread, harg3.read_unread, harg4.read_unread, harg5.read_unread, harg6.read_unread, harg8.read_unread, harg9.read_unread, View.ld_unit_zero (S := S256x4096) hz, View.ld_unit_zero (S := S4096x256) hz, View.ld_unit_zero (S := S256x256) hz, View.ld_unit_zero (S := S128x128) hz, View.ld_unit_zero (S := S1x128) hz]

variable (xs0 xs1 : Vec F S256x256 .f32)

/-- A middle step, first side: what the step before left plus the product. -/
theorem mid_w (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 x4 xs0 xs1 = k0_pay4 x2 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S256x4096) hz, View.ld_unit_zero (S := S4096x256) hz, View.ld_unit_zero (S := S256x256) hz, View.ld_unit_zero (S := S128x128) hz, View.ld_unit_zero (S := S1x128) hz]

/-- A middle step, second side. -/
theorem mid_b (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 x4 xs0 xs1 = k0_pay5 x2 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S256x4096) hz, View.ld_unit_zero (S := S4096x256) hz, View.ld_unit_zero (S := S256x256) hz, View.ld_unit_zero (S := S128x128) hz, View.ld_unit_zero (S := S1x128) hz]

/-- The last step, first side: as a middle step. -/
theorem last_w (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 x4 xs0 xs1 = k0_pay4 x2 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S256x4096) hz, View.ld_unit_zero (S := S4096x256) hz, View.ld_unit_zero (S := S256x256) hz, View.ld_unit_zero (S := S128x128) hz, View.ld_unit_zero (S := S1x128) hz]

/-- The last step, second side. -/
theorem last_b (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 x4 xs0 xs1 = k0_pay5 x2 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S256x4096) hz, View.ld_unit_zero (S := S4096x256) hz, View.ld_unit_zero (S := S256x256) hz, View.ld_unit_zero (S := S128x128) hz, View.ld_unit_zero (S := S1x128) hz]

/-- The last step's output block: the finishing arithmetic of the two running sums as the step itself has just
    stored them. -/
theorem last_out (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1 = k0_pay6 x4 x3 (k0_pay4 x2 x0 xs0) (k0_pay5 x2 x1 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz, View.readCov_unit_zero (S := S256x256) _ hz, View.readCov_unit_zero (S := S256x256) _ hz]
  simp only [View.readAt_eq_ld, harg2.read_unread, harg3.read_unread, harg4.read_unread, harg5.read_unread, harg6.read_unread, harg8.read_unread, harg9.read_unread, View.ld_unit_zero (S := S256x4096) hz, View.ld_unit_zero (S := S4096x256) hz, View.ld_unit_zero (S := S256x256) hz, View.ld_unit_zero (S := S128x128) hz, View.ld_unit_zero (S := S1x128) hz]

end Cert.KernelIdeal.Pieces

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.Payloads.lean ====
/-
  The body's three stored values read at an index, on the extended reals.

  The zero block is 0 everywhere. A step's new running sum at (p, n) is the old one at (p, n) plus the sum over the
  4096 features of the step of the side's block at (p, k) times the weight block at (k, n). The output block at (p, j)
  is computed from the two finished running sums y and z (one per side): columns 128 and 129 hold the piece-square
  sums, columns 0 … 127 the accumulators, which get the bias, are clipped to [0, 1] and multiplied into the padded
  output weight, of which only columns 0 and 1 are read:

      (y (p, 128 + j) − z (p, 128 + j)) + (Σ_a clip (y (p, a) + b a) · O (a, j) − Σ_a clip (z (p, a) + b a) · O (a, j)).
-/
import proofs.«133950_j43525198577726_2_alg».proof.Proof.Gen.KernelIdeal.Skeleton
import proofs.«133950_j43525198577726_2_alg».proof.Proof.LibMatmul2d
import proofs.«133950_j43525198577726_2_alg».proof.Proof.Spec
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-- Column a of the 128 accumulator columns, column 128 + j of the two piece-square columns, among the 256 columns of
    a running sum; column j among the 128 columns of the padded output weight. -/
abbrev lane (a : Fin 128) : Fin 256 := ⟨a.val, by have := a.isLt; omega⟩
abbrev tail (j : Fin 2) : Fin 256 := ⟨128 + j.val, by have := j.isLt; omega⟩
abbrev col (j : Fin 2) : Fin 128 := ⟨j.val, by have := j.isLt; omega⟩

/-- The zero block. -/
theorem zero_w (y : S256x256.Idx) : k0_pay1 (F := Ideal) y = 0 := by
  unfold k0_pay1
  simp only [shapeCast_self]
  exact Ideal.ofBits_zero_f32

theorem zero_b (y : S256x256.Idx) : k0_pay2 (F := Ideal) y = 0 := by
  unfold k0_pay2
  simp only [shapeCast_self]
  exact Ideal.ofBits_zero_f32

/-- One step of the first side's running sum at (p, n). -/
theorem step_w (v3 : Vec Ideal S4096x256 .bf16) (v5 : Vec Ideal S256x4096 .f32) (v9 : Vec Ideal S256x256 .f32)
    (p n : Fin 256) :
    k0_pay4 (F := Ideal) v3 v5 v9 (ix2 p n) = v9 (ix2 p n) + ∑ k : Fin 4096, v5 (ix2 p k) * v3 (ix2 k n) := by
  unfold k0_pay4 k0_pay3
  simp only [shapeCast_self, Idealize.ShloMosaic.matmul]
  rw [addf_apply, show dot_S256x4096_S4096x256_S256x256_1_0_0_1_n_n = DotDims.plain 256 4096 256 from rfl,
    LibMatmul2d.matmul_plain_apply]
  rfl

/-- One step of the second side's running sum at (p, n). -/
theorem step_b (v3 : Vec Ideal S4096x256 .bf16) (v7 : Vec Ideal S256x4096 .f32) (v15 : Vec Ideal S256x256 .f32)
    (p n : Fin 256) :
    k0_pay5 (F := Ideal) v3 v7 v15 (ix2 p n) = v15 (ix2 p n) + ∑ k : Fin 4096, v7 (ix2 p k) * v3 (ix2 k n) := by
  unfold k0_pay5 k0_pay3
  simp only [shapeCast_self, Idealize.ShloMosaic.matmul]
  rw [addf_apply, show dot_S256x4096_S4096x256_S256x256_1_0_0_1_n_n = DotDims.plain 256 4096 256 from rfl,
    LibMatmul2d.matmul_plain_apply]
  rfl

/-! ## The layout steps of the finishing arithmetic, each at an index -/

theorem slice_tail (x : S256x256.Idx → EReal) (p : Fin 256) (j : Fin 2) :
    extractStridedSlice S256x2 ![0, 128] x slices_S256x256_o0_128_S256x2 (ix2 p j) = x (ix2 p (tail j)) :=
  extractStridedSlice_apply _ x _ _ _ (fun a => by
    match a with
    | ⟨0, _⟩ => exact (Nat.zero_add _).symm
    | ⟨1, _⟩ => rfl)

theorem slice_lane (x : S256x256.Idx → EReal) (p : Fin 256) (a : Fin 128) :
    extractStridedSlice S256x128 ![0, 0] x slices_S256x256_o0_0_S256x128 (ix2 p a) = x (ix2 p (lane a)) :=
  extractStridedSlice_apply _ x _ _ _ (fun b => by
    match b with
    | ⟨0, _⟩ => exact (Nat.zero_add _).symm
    | ⟨1, _⟩ => exact (Nat.zero_add _).symm)

theorem slice_col (x : S256x128.Idx → EReal) (p : Fin 256) (j : Fin 2) :
    extractStridedSlice S256x2 ![0, 0] x slices_S256x128_o0_0_S256x2 (ix2 p j) = x (ix2 p (col j)) :=
  extractStridedSlice_apply _ x _ _ _ (fun b => by
    match b with
    | ⟨0, _⟩ => exact (Nat.zero_add _).symm
    | ⟨1, _⟩ => exact (Nat.zero_add _).symm)

theorem bias_rows (v : S1x128.Idx → EReal) (p : Fin 256) (a : Fin 128) :
    broadcastTo S256x128 v broadcasts_S1x128_S256x128 (ix2 p a) = v (ix2 (0 : Fin 1) a) :=
  broadcastTo_apply v _ _ _ (fun b => by
    match b with
    | ⟨0, _⟩ => show 0 = if (1 : Nat) = 1 then 0 else _; rw [if_pos rfl]
    | ⟨1, _⟩ => show a.val = if (128 : Nat) = 1 then 0 else a.val; rw [if_neg (by decide)])

/-- The clipped accumulator of row p of a running sum. -/
def clipRow (y : S256x256.Idx → EReal) (bias : S1x128.Idx → EReal) (p : Fin 256) (a : Fin 128) : EReal :=
  min Spec.hi (max Spec.lo (y (ix2 p (lane a)) + bias (ix2 (0 : Fin 1) a)))

/-- The finishing arithmetic at (p, j), of the two running sums y and z, the bias row and the padded output weight. -/
def finish (y z : S256x256.Idx → EReal) (bias : S1x128.Idx → EReal) (O : S128x128.Idx → EReal) (p : Fin 256) (j : Fin 2) : EReal :=
  (y (ix2 p (tail j)) - z (ix2 p (tail j)))
    + ((∑ a : Fin 128, clipRow y bias p a * O (ix2 a (col j))) - (∑ a : Fin 128, clipRow z bias p a * O (ix2 a (col j))))

/-- The clip, bias and lane slice of one running sum at (p, a). -/
theorem clip_apply (y : S256x256.Idx → EReal) (bias : S1x128.Idx → EReal) (p : Fin 256) (a : Fin 128) :
    (truncf (F := Ideal) .bf16 (minimumf (broadcast S256x128 (Scalar.ofBits (F := Ideal) .f32 0x3F800000#32))
      (maximumf (broadcast S256x128 (Scalar.ofBits (F := Ideal) .f32 0x00000000#32))
        (addf (extractStridedSlice S256x128 ![0, 0] y slices_S256x256_o0_0_S256x128)
          (broadcastTo S256x128 bias broadcasts_S1x128_S256x128)))) bitsLt_bf16_f32 : FVec Ideal S256x128 .bf16) (ix2 p a)
      = clipRow y bias p a := by
  rw [truncf_apply, minimumf_apply, maximumf_apply, addf_apply, slice_lane, bias_rows]
  rfl

/-- The output block at (p, j). -/
theorem out_apply (v24 : Vec Ideal S1x128 .f32) (v26 : Vec Ideal S128x128 .bf16) (v28 v29 : Vec Ideal S256x256 .f32)
    (p : Fin 256) (j : Fin 2) :
    k0_pay6 (F := Ideal) v24 v26 v28 v29 (ix2 p j) = finish v28 v29 v24 v26 p j := by
  unfold k0_pay6
  simp only [shapeCast_self, Idealize.ShloMosaic.matmul]
  rw [addf_apply, subf_apply, subf_apply, slice_tail, slice_tail, slice_col, slice_col,
    show dot_S256x128_S128x128_S256x128_1_0_0_1_n_n = DotDims.plain 256 128 128 from rfl,
    LibMatmul2d.matmul_plain_apply, LibMatmul2d.matmul_plain_apply]
  unfold finish
  simp only [clip_apply]

end Cert.KernelIdeal.Payloads

end
-- ==== Proof.Blocks.lean ====
/-
  The blocks the body loads at a grid point, as entries of the arrays the region finds.

  The grid has 16 row tiles of 256 rows and, inside each, 5 steps over the feature axis of 4096 features each; point t
  is step t mod 5 of row tile t div 5. At point t a side's block holds rows 256·(t div 5) … of the side's array and
  features 4096·(t mod 5) …; the weight block holds rows 4096·(t mod 5) … of the fused weight, all 256 columns; the
  padded output weight and the bias row are whole at every point.
-/
import proofs.«133950_j43525198577726_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ) (c : Dev nD)

/-- Where each window's block sits at point t, in blocks: decided once over the 80 points. -/
theorem block_index : ∀ t : Fin cfg0.N,
    win0_0.index t 0 = t.val / 5 ∧ win0_0.index t 1 = t.val % 5
    ∧ win0_1.index t 0 = t.val / 5 ∧ win0_1.index t 1 = t.val % 5
    ∧ win0_2.index t 0 = t.val % 5 ∧ win0_2.index t 1 = 0
    ∧ win0_3.index t 0 = 0 ∧ win0_3.index t 1 = 0
    ∧ win0_4.index t 0 = 0 ∧ win0_4.index t 1 = 0
    ∧ win0_5.index t 0 = t.val / 5 ∧ win0_5.index t 1 = 0 :=
  (by decide +kernel : ∀ t : Fin grid0.N,
    win0_0.index t 0 = t.val / 5 ∧ win0_0.index t 1 = t.val % 5
    ∧ win0_1.index t 0 = t.val / 5 ∧ win0_1.index t 1 = t.val % 5
    ∧ win0_2.index t 0 = t.val % 5 ∧ win0_2.index t 1 = 0
    ∧ win0_3.index t 0 = 0 ∧ win0_3.index t 1 = 0
    ∧ win0_4.index t 0 = 0 ∧ win0_4.index t 1 = 0
    ∧ win0_5.index t 0 = t.val / 5 ∧ win0_5.index t 1 = 0)

/-- The first side's block at point t. -/
theorem side_first (t : Fin cfg0.N) (x : S256x4096.Idx) (k : S4096x20480.Idx)
    (hk0 : (k 0).val = 256 * (t.val / 5) + (x 0).val) (hk1 : (k 1).val = 4096 * (t.val % 5) + (x 1).val) :
    (iblk m c 0 t : Vec F S256x4096 .f32) x = (m ((c : Thread nD τ).loc main_arg0) : S4096x20480.Idx → Elt F .f32) k := by
  have hi := block_index t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * (x 0).val = (k 0).val; rw [hi.1, hk0]; omega
  | ⟨1, _⟩ => show win0_0.index t 1 * 4096 + 1 * (x 1).val = (k 1).val; rw [hi.2.1, hk1]; omega

/-- The second side's block at point t. -/
theorem side_second (t : Fin cfg0.N) (x : S256x4096.Idx) (k : S4096x20480.Idx)
    (hk0 : (k 0).val = 256 * (t.val / 5) + (x 0).val) (hk1 : (k 1).val = 4096 * (t.val % 5) + (x 1).val) :
    (iblk m c 1 t : Vec F S256x4096 .f32) x = (m ((c : Thread nD τ).loc main_arg1) : S4096x20480.Idx → Elt F .f32) k := by
  have hi := block_index t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * (x 0).val = (k 0).val; rw [hi.2.2.1, hk0]; omega
  | ⟨1, _⟩ => show win0_1.index t 1 * 4096 + 1 * (x 1).val = (k 1).val; rw [hi.2.2.2.1, hk1]; omega

/-- The weight block at point t: 4096 rows of the fused weight. -/
theorem weight (t : Fin cfg0.N) (x : S4096x256.Idx) (k : S20480x256.Idx)
    (hk0 : (k 0).val = 4096 * (t.val % 5) + (x 0).val) (hk1 : (k 1).val = (x 1).val) :
    (iblk m c 2 t : Vec F S4096x256 .bf16) x = (V m c main_v7 : S20480x256.Idx → Elt F .bf16) k := by
  have hi := block_index t
  unfold iblk
  rw [View.read_apply]
  show V m c main_v7 _ = V m c main_v7 _
  congr 1
  funext a
  apply Fin.ext
  match a with
  | ⟨0, _⟩ => show win0_2.index t 0 * 4096 + 1 * (x 0).val = (k 0).val; rw [hi.2.2.2.2.1, hk0]; omega
  | ⟨1, _⟩ => show win0_2.index t 1 * 256 + 1 * (x 1).val = (k 1).val; rw [hi.2.2.2.2.2.1, hk1]; omega

/-- The padded output weight is whole at every point. -/
theorem out_weight (t : Fin cfg0.N) (x : S128x128.Idx) :
    (iblk m c 3 t : Vec F S128x128 .bf16) x = (V m c main_v12 : S128x128.Idx → Elt F .bf16) x := by
  have hi := block_index t
  unfold iblk
  rw [View.read_apply]
  show V m c main_v12 _ = V m c main_v12 _
  congr 1
  funext a
  apply Fin.ext
  match a with
  | ⟨0, _⟩ => show win0_3.index t 0 * 128 + 1 * (x 0).val = (x 0).val; rw [hi.2.2.2.2.2.2.1]; omega
  | ⟨1, _⟩ => show win0_3.index t 1 * 128 + 1 * (x 1).val = (x 1).val; rw [hi.2.2.2.2.2.2.2.1]; omega

/-- The bias row is whole at every point. -/
theorem bias (t : Fin cfg0.N) (x : S1x128.Idx) :
    (iblk m c 4 t : Vec F S1x128 .f32) x = (V m c main_v13 : S1x128.Idx → Elt F .f32) x := by
  have hi := block_index t
  unfold iblk
  rw [View.read_apply]
  show V m c main_v13 _ = V m c main_v13 _
  congr 1
  funext a
  apply Fin.ext
  match a with
  | ⟨0, _⟩ => show win0_4.index t 0 * 1 + 1 * (x 0).val = (x 0).val; rw [hi.2.2.2.2.2.2.2.2.1]; omega
  | ⟨1, _⟩ => show win0_4.index t 1 * 128 + 1 * (x 1).val = (x 1).val; rw [hi.2.2.2.2.2.2.2.2.2.1]; omega

end Cert.KernelIdeal.Blocks

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.Accum.lean ====
/-
  The two running sums over a row tile, and the output block the tile's last step stores.

  Within row tile q the grid visits steps 5q, 5q + 1, …, 5q + 4. The first stores zero plus its product into each
  scratch block, every later one adds its product onto what the step before left, so after the last step a scratch
  block holds, at (p, n), zero plus the five steps' products: the sum over s < 5 of the sum over the 4096 features of
  step s of side (p, ·) times weight (·, n). Cut into its five blocks, that is the sum over all 20480 features; no
  finiteness is needed, only that a finite sum in a commutative monoid may be regrouped. The output block of the last
  step is the finishing arithmetic of those two sums.
-/
import proofs.«133950_j43525198577726_2_alg».proof.Proof.Gen.KernelIdeal.Value
import proofs.«133950_j43525198577726_2_alg».proof.Proof.Pieces
import proofs.«133950_j43525198577726_2_alg».proof.Proof.Payloads
import proofs.«133950_j43525198577726_2_alg».proof.Proof.Blocks
import proofs.«133950_j43525198577726_2_alg».proof.Proof.LibBlockSum

noncomputable section

open Idealize.ShloMosaic Idealize.ShloMosaic.TcCoe Idealize.SL.Sem

namespace Cert.KernelIdeal.Accum

open Cert.KernelIdeal Cert.KernelIdeal.Gen Cert.KernelIdeal.Value Idealize.ShloMosaic.ValueIdx
open scoped BigOperators

variable (m : (ℓ : Loc nD τ sig) → Buf (Elt Ideal) ℓ) (c : Dev nD)

/-- The two sides' arrays and the fused weight as the region finds them, as arrays of extended reals. -/
abbrev sideW : S4096x20480.Idx → EReal := m ((c : Thread nD τ).loc main_arg0)
abbrev sideB : S4096x20480.Idx → EReal := m ((c : Thread nD τ).loc main_arg1)
abbrev fused : S20480x256.Idx → EReal := V m c main_v7

/-- One step's product at an index of the 256 × 256 scratch block. -/
def prod (x : S256x4096.Idx → EReal) (w : S4096x256.Idx → EReal) (i : S256x256.Idx) : EReal :=
  ∑ k : Fin 4096, x (ix2 (i 0) k) * w (ix2 k (i 1))

theorem step_w (v3 : Vec Ideal S4096x256 .bf16) (v5 : Vec Ideal S256x4096 .f32) (v9 : Vec Ideal S256x256 .f32) (i : S256x256.Idx) :
    k0_pay4 (F := Ideal) v3 v5 v9 i = v9 i + prod v5 v3 i := by
  obtain ⟨p, n, rfl⟩ : ∃ (p n : Fin 256), i = ix2 p n := ⟨i 0, i 1, eq_ix2 i⟩
  exact Payloads.step_w v3 v5 v9 p n

theorem step_b (v3 : Vec Ideal S4096x256 .bf16) (v7 : Vec Ideal S256x4096 .f32) (v15 : Vec Ideal S256x256 .f32) (i : S256x256.Idx) :
    k0_pay5 (F := Ideal) v3 v7 v15 i = v15 i + prod v7 v3 i := by
  obtain ⟨p, n, rfl⟩ : ∃ (p n : Fin 256), i = ix2 p n := ⟨i 0, i 1, eq_ix2 i⟩
  exact Payloads.step_b v3 v7 v15 p n

/-- The product point n adds to the first side's running sum (0 past the grid, where it is never used). -/
def addW (n : ℕ) (i : S256x256.Idx) : EReal :=
  if h : n < cfg0.N then prod (iblk m c 0 ⟨n, h⟩) (iblk m c 2 ⟨n, h⟩) i else 0

/-- The product point n adds to the second side's running sum. -/
def addB (n : ℕ) (i : S256x256.Idx) : EReal :=
  if h : n < cfg0.N then prod (iblk m c 1 ⟨n, h⟩) (iblk m c 2 ⟨n, h⟩) i else 0

/-- What a point leaves in the first scratch block: at a tile's first step zero plus its product, -/
theorem reset_w (n : ℕ) (h : n < cfg0.N) (h0 : n % 5 = 0) (acc : Vec Ideal S256x256 .f32) (i : S256x256.Idx) :
    scAt0_0 m c n h acc i = (0 : EReal) + addW m c n i := by
  have hN : n < 80 := lt_of_lt_of_eq h (show cfg0.N = 80 from N_0)
  have h1 : ¬n % 5 = 4 := by omega
  unfold scAt0_0
  rw [dif_pos h0, dif_neg h1]
  refine (congrFun (Pieces.first_w c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) _ _) i).trans ?_
  refine (step_w (iblk m c 2 (⟨n, h⟩ : Fin cfg0.N)) (iblk m c 0 (⟨n, h⟩ : Fin cfg0.N)) (k0_pay1 (F := Ideal)) i).trans ?_
  rw [Payloads.zero_w]
  unfold addW
  rw [dif_pos h]

/-- at every later step what the step before left plus its product. -/
theorem carry_w (n : ℕ) (h : n < cfg0.N) (h0 : ¬n % 5 = 0) (acc : Vec Ideal S256x256 .f32) (i : S256x256.Idx) :
    scAt0_0 m c n h acc i = acc i + addW m c n i := by
  unfold scAt0_0
  rw [dif_neg h0]
  by_cases h1 : n % 5 = 4
  · rw [dif_pos h1]
    refine (congrFun (Pieces.last_w c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc _ _ _) i).trans ?_
    refine (step_w (iblk m c 2 (⟨n, h⟩ : Fin cfg0.N)) (iblk m c 0 (⟨n, h⟩ : Fin cfg0.N)) acc i).trans ?_
    unfold addW
    rw [dif_pos h]
  · rw [dif_neg h1]
    refine (congrFun (Pieces.mid_w c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc _ _ _) i).trans ?_
    refine (step_w (iblk m c 2 (⟨n, h⟩ : Fin cfg0.N)) (iblk m c 0 (⟨n, h⟩ : Fin cfg0.N)) acc i).trans ?_
    unfold addW
    rw [dif_pos h]

theorem reset_b (n : ℕ) (h : n < cfg0.N) (h0 : n % 5 = 0) (acc : Vec Ideal S256x256 .f32) (i : S256x256.Idx) :
    scAt0_1 m c n h acc i = (0 : EReal) + addB m c n i := by
  have hN : n < 80 := lt_of_lt_of_eq h (show cfg0.N = 80 from N_0)
  have h1 : ¬n % 5 = 4 := by omega
  unfold scAt0_1
  rw [dif_pos h0, dif_neg h1]
  refine (congrFun (Pieces.first_b c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) _ _) i).trans ?_
  refine (step_b (iblk m c 2 (⟨n, h⟩ : Fin cfg0.N)) (iblk m c 1 (⟨n, h⟩ : Fin cfg0.N)) (k0_pay2 (F := Ideal)) i).trans ?_
  rw [Payloads.zero_b]
  unfold addB
  rw [dif_pos h]

theorem carry_b (n : ℕ) (h : n < cfg0.N) (h0 : ¬n % 5 = 0) (acc : Vec Ideal S256x256 .f32) (i : S256x256.Idx) :
    scAt0_1 m c n h acc i = acc i + addB m c n i := by
  unfold scAt0_1
  rw [dif_neg h0]
  by_cases h1 : n % 5 = 4
  · rw [dif_pos h1]
    refine (congrFun (Pieces.last_b c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) _ acc _ _) i).trans ?_
    refine (step_b (iblk m c 2 (⟨n, h⟩ : Fin cfg0.N)) (iblk m c 1 (⟨n, h⟩ : Fin cfg0.N)) acc i).trans ?_
    unfold addB
    rw [dif_pos h]
  · rw [dif_neg h1]
    refine (congrFun (Pieces.mid_b c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) scM0_1 (Memref.isWhole_whole _) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) _ acc _ _) i).trans ?_
    refine (step_b (iblk m c 2 (⟨n, h⟩ : Fin cfg0.N)) (iblk m c 1 (⟨n, h⟩ : Fin cfg0.N)) acc i).trans ?_
    unfold addB
    rw [dif_pos h]

/-- After the last step of a row tile the first scratch block holds zero plus the five steps' products. -/
theorem five_w (t : Fin cfg0.N) (h4 : t.val % 5 = 4) (i : S256x256.Idx) :
    (outsAt0 m c t.val t.isLt).2.1 i = (0 : EReal) + ∑ s ∈ Finset.range 5, addW m c (5 * (t.val / 5) + s) i := by
  have hN : t.val < 80 := lt_of_lt_of_eq t.isLt (show cfg0.N = 80 from N_0)
  rw [soutsAt0_0_eq m c t]
  have e := Pipeline.accAt_add_apply (N := cfg0.N) (ι := S256x256.Idx) (β := EReal)
    (fun n h => scAt0_0 m c n h (VS0_0.read (Elt Ideal) VS0_0.junk)) (scAt0_0 m c) (fun _ => (0 : EReal)) (addW m c)
    (5 * (t.val / 5)) 4
    (fun h i => reset_w m c _ h (Nat.mul_mod_right 5 _) _ i)
    (fun n h acc i h1 h2 => carry_w m c n h (by omega) acc i)
    (t.val % 5) (by omega) (by omega) i
  rw [e, h4]

theorem five_b (t : Fin cfg0.N) (h4 : t.val % 5 = 4) (i : S256x256.Idx) :
    (outsAt0 m c t.val t.isLt).2.2 i = (0 : EReal) + ∑ s ∈ Finset.range 5, addB m c (5 * (t.val / 5) + s) i := by
  have hN : t.val < 80 := lt_of_lt_of_eq t.isLt (show cfg0.N = 80 from N_0)
  rw [soutsAt0_1_eq m c t]
  have e := Pipeline.accAt_add_apply (N := cfg0.N) (ι := S256x256.Idx) (β := EReal)
    (fun n h => scAt0_1 m c n h (VS0_1.read (Elt Ideal) VS0_1.junk)) (scAt0_1 m c) (fun _ => (0 : EReal)) (addB m c)
    (5 * (t.val / 5)) 4
    (fun h i => reset_b m c _ h (Nat.mul_mod_right 5 _) _ i)
    (fun n h acc i h1 h2 => carry_b m c n h (by omega) acc i)
    (t.val % 5) (by omega) (by omega) i
  rw [e, h4]

/-- Step s of row tile q adds, at (p, n), the 4096 features of its block: features 4096·s … of row 256·q + p of the side
    against rows 4096·s … of the fused weight. -/
theorem addW_block (q : ℕ) (hq : q < 16) (s : Fin 5) (p n : Fin 256) (row : Fin 4096) (hrow : row.val = 256 * q + p.val) :
    addW m c (5 * q + s.val) (ix2 p n)
      = ∑ r : Fin 4096, sideW m c
            (ix2 row ⟨(LibBlockSum.blockIdx s r).val, by have := (LibBlockSum.blockIdx s r).isLt; omega⟩)
          * fused m c (ix2 ⟨(LibBlockSum.blockIdx s r).val, by have := (LibBlockSum.blockIdx s r).isLt; omega⟩ n) := by
  have hs := s.isLt
  have hlt : 5 * q + s.val < cfg0.N := by rw [show cfg0.N = 80 from N_0]; omega
  unfold addW
  rw [dif_pos hlt]
  unfold prod
  refine Finset.sum_congr rfl fun r _ => ?_
  have hr := r.isLt
  have hd : (5 * q + s.val) / 5 = q := by omega
  have hm : (5 * q + s.val) % 5 = s.val := by omega
  rw [Blocks.side_first m c ⟨5 * q + s.val, hlt⟩ (ix2 p r) (ix2 row ⟨(LibBlockSum.blockIdx s r).val, by have := (LibBlockSum.blockIdx s r).isLt; omega⟩)
      (by show row.val = 256 * ((5 * q + s.val) / 5) + p.val; rw [hd, hrow])
      (by show (LibBlockSum.blockIdx s r).val = 4096 * ((5 * q + s.val) % 5) + r.val; rw [hm, LibBlockSum.blockIdx_val]; omega),
    Blocks.weight m c ⟨5 * q + s.val, hlt⟩ (ix2 r n) (ix2 ⟨(LibBlockSum.blockIdx s r).val, by have := (LibBlockSum.blockIdx s r).isLt; omega⟩ n)
      (by show (LibBlockSum.blockIdx s r).val = 4096 * ((5 * q + s.val) % 5) + r.val; rw [hm, LibBlockSum.blockIdx_val]; omega)
      rfl]

theorem addB_block (q : ℕ) (hq : q < 16) (s : Fin 5) (p n : Fin 256) (row : Fin 4096) (hrow : row.val = 256 * q + p.val) :
    addB m c (5 * q + s.val) (ix2 p n)
      = ∑ r : Fin 4096, sideB m c
            (ix2 row ⟨(LibBlockSum.blockIdx s r).val, by have := (LibBlockSum.blockIdx s r).isLt; omega⟩)
          * fused m c (ix2 ⟨(LibBlockSum.blockIdx s r).val, by have := (LibBlockSum.blockIdx s r).isLt; omega⟩ n) := by
  have hs := s.isLt
  have hlt : 5 * q + s.val < cfg0.N := by rw [show cfg0.N = 80 from N_0]; omega
  unfold addB
  rw [dif_pos hlt]
  unfold prod
  refine Finset.sum_congr rfl fun r _ => ?_
  have hr := r.isLt
  have hd : (5 * q + s.val) / 5 = q := by omega
  have hm : (5 * q + s.val) % 5 = s.val := by omega
  rw [Blocks.side_second m c ⟨5 * q + s.val, hlt⟩ (ix2 p r) (ix2 row ⟨(LibBlockSum.blockIdx s r).val, by have := (LibBlockSum.blockIdx s r).isLt; omega⟩)
      (by show row.val = 256 * ((5 * q + s.val) / 5) + p.val; rw [hd, hrow])
      (by show (LibBlockSum.blockIdx s r).val = 4096 * ((5 * q + s.val) % 5) + r.val; rw [hm, LibBlockSum.blockIdx_val]; omega),
    Blocks.weight m c ⟨5 * q + s.val, hlt⟩ (ix2 r n) (ix2 ⟨(LibBlockSum.blockIdx s r).val, by have := (LibBlockSum.blockIdx s r).isLt; omega⟩ n)
      (by show (LibBlockSum.blockIdx s r).val = 4096 * ((5 * q + s.val) % 5) + r.val; rw [hm, LibBlockSum.blockIdx_val]; omega)
      rfl]

/-- Five blocks of 4096 features are the 20480 features. -/
theorem regroup (x : S4096x20480.Idx → EReal) (W : S20480x256.Idx → EReal) (row : Fin 4096) (n : Fin 256) (f : ℕ → EReal)
    (hf : ∀ s : Fin 5, f s.val = ∑ r : Fin 4096,
      x (ix2 row ⟨(LibBlockSum.blockIdx s r).val, by have := (LibBlockSum.blockIdx s r).isLt; omega⟩)
        * W (ix2 ⟨(LibBlockSum.blockIdx s r).val, by have := (LibBlockSum.blockIdx s r).isLt; omega⟩ n)) :
    (0 : EReal) + ∑ s ∈ Finset.range 5, f s = ∑ k : Fin 20480, x (ix2 row k) * W (ix2 k n) := by
  rw [zero_add, LibBlockSum.sum_range_blocks 5 4096
    (fun K : Fin (5 * 4096) => x (ix2 row ⟨K.val, by have := K.isLt; omega⟩) * W (ix2 ⟨K.val, by have := K.isLt; omega⟩ n)) f hf]

/-- After the last step of row tile q the first scratch block holds, at (p, n), row 256·q + p of the first side against
    column n of the fused weight, over all features. -/
theorem total_w (t : Fin cfg0.N) (h4 : t.val % 5 = 4) (p n : Fin 256) (row : Fin 4096) (hrow : row.val = 256 * (t.val / 5) + p.val) :
    (outsAt0 m c t.val t.isLt).2.1 (ix2 p n)
      = ∑ k : Fin 20480, sideW m c (ix2 row k)
          * fused m c (ix2 k n) := by
  have hN : t.val < 80 := lt_of_lt_of_eq t.isLt (show cfg0.N = 80 from N_0)
  rw [five_w m c t h4]
  exact regroup (sideW m c) (fused m c) row n (fun s => addW m c (5 * (t.val / 5) + s) (ix2 p n))
    (fun s => addW_block m c (t.val / 5) (by omega) s p n row hrow)

theorem total_b (t : Fin cfg0.N) (h4 : t.val % 5 = 4) (p n : Fin 256) (row : Fin 4096) (hrow : row.val = 256 * (t.val / 5) + p.val) :
    (outsAt0 m c t.val t.isLt).2.2 (ix2 p n)
      = ∑ k : Fin 20480, sideB m c (ix2 row k)
          * fused m c (ix2 k n) := by
  have hN : t.val < 80 := lt_of_lt_of_eq t.isLt (show cfg0.N = 80 from N_0)
  rw [five_b m c t h4]
  exact regroup (sideB m c) (fused m c) row n (fun s => addB m c (5 * (t.val / 5) + s) (ix2 p n))
    (fun s => addB_block m c (t.val / 5) (by omega) s p n row hrow)

/-- The output block the last step of a row tile stores: the finishing arithmetic of the two scratch blocks as that
    step leaves them, the bias row and the padded output weight. -/
theorem out_last (t : Fin cfg0.N) (h4 : t.val % 5 = 4) :
    (outsAt0 m c t.val t.isLt).1
      = k0_pay6 (F := Ideal) (iblk m c 4 t) (iblk m c 3 t) (outsAt0 m c t.val t.isLt).2.1 (outsAt0 m c t.val t.isLt).2.2 := by
  have h0 : ¬t.val % 5 = 0 := by omega
  have e := outsAt0_C m c t h0 h4
  have e1 := congrArg (fun z => z.1) e
  have e2 := congrArg (fun z => z.2.1) e
  have e3 := congrArg (fun z => z.2.2) e
  dsimp only at e1 e2 e3
  rw [e2, e3]
  refine e1.trans ?_
  refine (Pieces.last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) _ _ _ _).trans ?_
  refine congrArg₂ (k0_pay6 (F := Ideal) (iblk m c 4 t) (iblk m c 3 t)) ?_ ?_
  · exact (Pieces.last_w c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) _ _ _ _).symm
  · exact (Pieces.last_b c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) _ _ _ _).symm

end Cert.KernelIdeal.Accum

end
-- ==== Proof.LibScatterSet.lean ====
/-
  A host scatter whose body returns the update (`x.at[…].set(u)`), read at an index.

  `Host.scatter` is the left fold, over the update indices in row-major order, of "replace the element the update
  lands on". When every update lands inside the operand and no two updates land on the same element, the fold's
  result is the set semantics: an element some update lands on holds that update, every other element holds what
  the operand held. Both facts are proved here for any shapes, any scatter dimension record and any element type,
  from the landing map alone.
-/
import Idealize.ShloMosaic.PureOps.ShapeOps

namespace Idealize.ShloMosaic.LibScatterSet

open Idealize.ShloMosaic

variable {α : Type} {s si u : Shape} {w : Nat}

/-- One step of the fold when the update at `j` lands on `ri j`. -/
private def step (ri : u.Idx → s.Idx) (upd : u.Idx → α) (r : s.Idx → α) (n : Fin u.numel) : s.Idx → α :=
  fun i' => if i' = ri (u.rowMajor.symm n) then upd (u.rowMajor.symm n) else r i'

/-- An index none of the listed updates lands on keeps its value through the fold. -/
private theorem foldl_step_of_not_hit (ri : u.Idx → s.Idx) (upd : u.Idx → α) (i : s.Idx) :
    ∀ (l : List (Fin u.numel)) (r : s.Idx → α), (∀ n ∈ l, ri (u.rowMajor.symm n) ≠ i) → (l.foldl (step ri upd) r) i = r i
  | [], _, _ => rfl
  | a :: l, r, h => by
    rw [List.foldl_cons, foldl_step_of_not_hit ri upd i l _ fun n hn => h n (List.mem_cons_of_mem _ hn)]
    exact if_neg fun e => h a (List.mem_cons_self ..) e.symm

/-- With distinct landing places, the index update `j` lands on ends holding update `j`, once `j` is in the list. -/
private theorem foldl_step_of_hit (ri : u.Idx → s.Idx) (hinj : Function.Injective ri) (upd : u.Idx → α) (j : u.Idx) :
    ∀ (l : List (Fin u.numel)) (r : s.Idx → α), l.Nodup → u.rowMajor j ∈ l → (l.foldl (step ri upd) r) (ri j) = upd j
  | [], _, _, h => absurd h (List.not_mem_nil)
  | a :: l, r, hnd, hmem => by
    rw [List.foldl_cons]
    by_cases ha : u.rowMajor j = a
    · subst ha
      have hnot : ∀ n ∈ l, ri (u.rowMajor.symm n) ≠ ri j := fun n hn e => by
        have h1 : u.rowMajor.symm n = j := hinj e
        have h2 : n = u.rowMajor j := by rw [← h1, Equiv.apply_symm_apply]
        exact (List.nodup_cons.mp hnd).1 (h2 ▸ hn)
      rw [foldl_step_of_not_hit ri upd (ri j) l _ hnot]
      show (if ri j = ri (u.rowMajor.symm (u.rowMajor j)) then upd (u.rowMajor.symm (u.rowMajor j)) else r (ri j)) = upd j
      rw [Equiv.symm_apply_apply, if_pos rfl]
    · exact foldl_step_of_hit ri hinj upd j l _ (List.nodup_cons.mp hnd).2 ((List.mem_cons.mp hmem).resolve_left ha)

/-- The scatter's fold is the fold of `step` when every update index `j` lands on `ri j`. -/
private theorem scatter_eq_foldl (d : ScatterDims s si u) (x : s.Idx → α) (idx : IVec si w) (upd : u.Idx → α)
    (ri : u.Idx → s.Idx) (hri : ∀ j, d.resultIdx? j idx = some (ri j)) :
    Host.scatter d (fun _ b => b) x idx upd = (List.finRange u.numel).foldl (step ri upd) x := by
  unfold Host.scatter
  congr 1
  funext r n
  rw [hri]
  rfl

/-- SET semantics, the element an update lands on: it holds that update. -/
theorem scatter_set_hit (d : ScatterDims s si u) (x : s.Idx → α) (idx : IVec si w) (upd : u.Idx → α)
    (ri : u.Idx → s.Idx) (hri : ∀ j, d.resultIdx? j idx = some (ri j)) (hinj : Function.Injective ri) (j : u.Idx) :
    Host.scatter d (fun _ b => b) x idx upd (ri j) = upd j := by
  rw [scatter_eq_foldl d x idx upd ri hri]
  exact foldl_step_of_hit ri hinj upd j _ _ (List.nodup_finRange _) (List.mem_finRange _)

/-- SET semantics, an element no update lands on: it holds what the operand held. -/
theorem scatter_set_miss (d : ScatterDims s si u) (x : s.Idx → α) (idx : IVec si w) (upd : u.Idx → α)
    (ri : u.Idx → s.Idx) (hri : ∀ j, d.resultIdx? j idx = some (ri j)) (i : s.Idx) (hi : ∀ j, ri j ≠ i) :
    Host.scatter d (fun _ b => b) x idx upd i = x i := by
  rw [scatter_eq_foldl d x idx upd ri hri]
  exact foldl_step_of_not_hit ri upd i _ _ fun n _ => hi _

end Idealize.ShloMosaic.LibScatterSet
-- ==== Proof.LibColumnSet.lean ====
/-
  Setting a range of columns of a matrix on the host (`x.at[:, off : off + W].set(u)`), read at an index.

  The operation is a scatter whose body returns the update, with one scalar start index on the column axis: the
  operand has R rows and C columns, the update R rows and W columns, and update element (r, w) lands on operand element
  (r, off + w). When off + W ≤ C every update lands inside the operand and no two land on the same element, so the
  scatter has set semantics: a column inside [off, off + W) holds the update's column, every other column keeps the
  operand's. Both facts are proved for any extents and any element type, from the scatter's landing map computed for
  this dimension record (update window axes [0, 1], no inserted axis, the start index going to axis 1).
-/
import proofs.«133950_j43525198577726_2_alg».proof.Proof.LibScatterSet
import Idealize.ShloMosaic.Lib.ValueIdx

noncomputable section

namespace Cert.LibColumnSet

open Idealize.ShloMosaic Idealize.ShloMosaic.ValueIdx

section ColumnSet

variable {α : Type} {R C W : Nat}

/-- The dimension numbers of `x.at[:, off : off + W].set(u)` on an `[R, C]` operand with an `[R, W]` update: both update
    axes are window axes, no operand axis is inserted, and the one start index is read on the column axis. -/
abbrev colDims (wf : ScatterDims.WF (⟨2, ![R, C]⟩ : Shape) ⟨1, ![1]⟩ ⟨2, ![R, W]⟩ [0, 1] [] [1] 0) :
    ScatterDims (⟨2, ![R, C]⟩ : Shape) ⟨1, ![1]⟩ ⟨2, ![R, W]⟩ :=
  { updateWindowDims := [0, 1], insertedWindowDims := [], scatterDimsToOperandDims := [1], indexVectorDim := 0, wf := wf }

variable (wf : ScatterDims.WF (⟨2, ![R, C]⟩ : Shape) ⟨1, ![1]⟩ ⟨2, ![R, W]⟩ [0, 1] [] [1] 0)

/-- The window starts at row 0 … -/
theorem colDims_start0 (idx : IVec ⟨1, ![1]⟩ 32) (j : (⟨2, ![R, W]⟩ : Shape).Idx) :
    (colDims wf).start j idx (0 : Fin 2) = 0 := by
  unfold ScatterDims.start
  rw [dif_neg (show ¬ (0 : Fin 2) ∈ [(1 : Fin 2)] by decide)]

/-- … and at the column the index vector holds, read signed. -/
theorem colDims_start1 (idx : IVec ⟨1, ![1]⟩ 32) (k : BitVec 32) (hidx : ∀ i, idx i = k) (j : (⟨2, ![R, W]⟩ : Shape).Idx) :
    (colDims wf).start j idx (1 : Fin 2) = k.toInt := by
  unfold ScatterDims.start
  rw [dif_pos (show (1 : Fin 2) ∈ [(1 : Fin 2)] by decide), hidx]

/-- The window coordinate on the row axis is the update's row … -/
theorem colDims_window0 (j : (⟨2, ![R, W]⟩ : Shape).Idx) : (colDims wf).window j (0 : Fin 2) = (j 0).val := by
  unfold ScatterDims.window
  have h0 : (0 : Fin 2) ∈ (colDims wf).sKept := show (0 : Fin 2) ∈ [(0 : Fin 2), 1] by decide
  rw [dif_pos h0]
  rfl

/-- … and on the column axis the update's column. -/
theorem colDims_window1 (j : (⟨2, ![R, W]⟩ : Shape).Idx) : (colDims wf).window j (1 : Fin 2) = (j 1).val := by
  unfold ScatterDims.window
  have h1 : (1 : Fin 2) ∈ (colDims wf).sKept := show (1 : Fin 2) ∈ [(0 : Fin 2), 1] by decide
  rw [dif_pos h1]
  rfl

/-- The landing map: update element `(r, w)` lands on operand element `(r, off + w)`. -/
def land (off : Nat) (hoff : off + W ≤ C) (j : (⟨2, ![R, W]⟩ : Shape).Idx) : (⟨2, ![R, C]⟩ : Shape).Idx :=
  ix2 (j 0) (⟨off + (j 1).val, by have := idx2_lt1 j; omega⟩ : Fin C)

/-- Every update element lands inside the operand, where the landing map says: start plus window coordinate is
    `(0 + r, off + w)`, within `[0, R) × [0, C)` because `off + W ≤ C`. -/
theorem colDims_resultIdx (off : Nat) (hoff : off + W ≤ C) (idx : IVec ⟨1, ![1]⟩ 32) (k : BitVec 32) (hidx : ∀ i, idx i = k)
    (hk : k.toInt = (off : Int)) (j : (⟨2, ![R, W]⟩ : Shape).Idx) :
    (colDims wf).resultIdx? j idx = some (land off hoff j) := by
  have hs0 := colDims_start0 wf idx j
  have hs1 := (colDims_start1 wf idx k hidx j).trans hk
  have hw0 := colDims_window0 wf j
  have hw1 := colDims_window1 wf j
  have hj0 := idx2_lt0 j
  have hj1 := idx2_lt1 j
  unfold ScatterDims.resultIdx?
  rw [dif_pos (fun a => match a with
    | ⟨0, _⟩ => by
        show 0 ≤ (colDims wf).start j idx (0 : Fin 2) + ((colDims wf).window j (0 : Fin 2) : Int) ∧
          (colDims wf).start j idx (0 : Fin 2) + ((colDims wf).window j (0 : Fin 2) : Int) < (R : Int)
        rw [hs0, hw0]; omega
    | ⟨1, _⟩ => by
        show 0 ≤ (colDims wf).start j idx (1 : Fin 2) + ((colDims wf).window j (1 : Fin 2) : Int) ∧
          (colDims wf).start j idx (1 : Fin 2) + ((colDims wf).window j (1 : Fin 2) : Int) < (C : Int)
        rw [hs1, hw1]; omega)]
  refine congrArg some (funext fun a => ?_)
  match a with
  | ⟨0, _⟩ =>
    refine Fin.ext ?_
    show ((colDims wf).start j idx (0 : Fin 2) + ((colDims wf).window j (0 : Fin 2) : Int)).toNat = (j 0).val
    rw [hs0, hw0]; omega
  | ⟨1, _⟩ =>
    refine Fin.ext ?_
    show ((colDims wf).start j idx (1 : Fin 2) + ((colDims wf).window j (1 : Fin 2) : Int)).toNat = off + (j 1).val
    rw [hs1, hw1]; omega

/-- Distinct update elements land on distinct operand elements. -/
theorem land_injective (off : Nat) (hoff : off + W ≤ C) : Function.Injective (land (R := R) off hoff) := by
  intro j j' h
  have h0 : (j 0) = (j' 0) := congrFun h (0 : Fin 2)
  have h1 : (⟨off + (j 1).val, _⟩ : Fin C) = ⟨off + (j' 1).val, _⟩ := congrFun h (1 : Fin 2)
  rw [eq_ix2 j, eq_ix2 j', h0]
  have h1' : (j 1).val = (j' 1).val := by have := congrArg Fin.val h1; simp only at this; omega
  rw [Fin.ext h1']

/-- The column-range set, inside the range: element `(r, off + w)` of the result is the update's `(r, w)`. -/
theorem colSet_hit (off : Nat) (hoff : off + W ≤ C) (x : (⟨2, ![R, C]⟩ : Shape).Idx → α) (idx : IVec ⟨1, ![1]⟩ 32) (k : BitVec 32)
    (hidx : ∀ i, idx i = k) (hk : k.toInt = (off : Int)) (u : (⟨2, ![R, W]⟩ : Shape).Idx → α) (r : Fin R) (w : Fin W)
    (n : Fin C) (hn : n.val = off + w.val) :
    Host.scatter (colDims wf) (fun _ b => b) x idx u (ix2 r n) = u (ix2 r w) := by
  have e : ix2 r n = land off hoff (ix2 r w) := by
    funext a; match a with
    | ⟨0, _⟩ => rfl
    | ⟨1, _⟩ => exact Fin.ext hn
  rw [e]
  exact Idealize.ShloMosaic.LibScatterSet.scatter_set_hit (colDims wf) x idx u (land off hoff)
    (colDims_resultIdx wf off hoff idx k hidx hk) (land_injective off hoff) (ix2 r w)

/-- The column-range set, outside the range: a column below `off` or from `off + W` on keeps the operand's element. -/
theorem colSet_miss (off : Nat) (hoff : off + W ≤ C) (x : (⟨2, ![R, C]⟩ : Shape).Idx → α) (idx : IVec ⟨1, ![1]⟩ 32) (k : BitVec 32)
    (hidx : ∀ i, idx i = k) (hk : k.toInt = (off : Int)) (u : (⟨2, ![R, W]⟩ : Shape).Idx → α) (r : Fin R)
    (n : Fin C) (hn : n.val < off ∨ off + W ≤ n.val) :
    Host.scatter (colDims wf) (fun _ b => b) x idx u (ix2 r n) = x (ix2 r n) := by
  refine Idealize.ShloMosaic.LibScatterSet.scatter_set_miss (colDims wf) x idx u (land off hoff)
    (colDims_resultIdx wf off hoff idx k hidx hk) (ix2 r n) (fun j e => ?_)
  have h1 : (⟨off + (j 1).val, _⟩ : Fin C) = n := congrFun e (1 : Fin 2)
  have h1' := congrArg Fin.val h1
  have hj1 := idx2_lt1 j
  simp only at h1'
  omega

end ColumnSet

end Cert.LibColumnSet

end
-- ==== Proof.HostPrep.lean ====
/-
  The host preparation of the kernel's operands, read at an index.

  Before the kernel region the program builds three arrays on the host. The fused weight [20480, 256] is a zero
  array whose columns 0 ‥ 127 are set to the transpose of the accumulator weight [128, 20480] and whose columns
  128 ‥ 129 are set to the transpose of the piece-square weight [2, 20480]; it is then narrowed to bf16, which on
  the extended reals is the identity. The padded output weight [128, 128] is a zero array whose columns 0 ‥ 1 are
  set to the transpose of the output weight [2, 128], narrowed likewise. The bias [128] is reshaped to [1, 128].

  Each "set" is a scatter whose body returns the update, at one literal start index on the column axis. Its landing
  map sends the update index (r, w) to (r, off + w): it is total (off + W ≤ C) and injective, so the scatter has
  set semantics: a column inside [off, off + W) reads the update, a column outside reads the operand. The four
  theorems at the end read the region-entry contents at an index and give the argument element found there.
-/
import proofs.«133950_j43525198577726_2_alg».proof.Proof.Gen.KernelIdeal.Frame.Runs
import proofs.«133950_j43525198577726_2_alg».proof.Proof.LibColumnSet
import Idealize.ShloMosaic.Lib.ValueIdx
import Idealize.ShloMosaic.Lib.Pipeline.Value
import Idealize.ShloMosaic.Lib.StableHlo.Run

noncomputable section

namespace Cert.KernelIdeal.HostPrep

open Cert.KernelIdeal Cert.KernelIdeal.Gen Cert.LibColumnSet Idealize.ShloMosaic Idealize.ShloMosaic.TcCoe Idealize.ShloMosaic.ValueIdx Idealize.SL.Sem

variable (m : (ℓ : Loc nD τ sig) → Buf (Elt Ideal) ℓ) (c : Dev nD)

/-! ## The program's three column sets -/

/-- The program's three scatter records are column-range sets. -/
theorem setAcc_eq : scatter_S20480x256_S1_S20480x128_01_n_1_0
    = colDims (R := 20480) (C := 256) (W := 128) Facts₀.scatter_S20480x256_S1_S20480x128_01_n_1_0_wf := rfl
theorem setPsqt_eq : scatter_S20480x256_S1_S20480x2_01_n_1_0
    = colDims (R := 20480) (C := 256) (W := 2) Facts₀.scatter_S20480x256_S1_S20480x2_01_n_1_0_wf := rfl
theorem setOut_eq : scatter_S128x128_S1_S128x2_01_n_1_0
    = colDims (R := 128) (C := 128) (W := 2) Facts₀.scatter_S128x128_S1_S128x2_01_n_1_0_wf := rfl

/-- The start index of a set at column `k`: the scalar word `k` broadcast to the one-element index vector. -/
abbrev startAt (k : BitVec 32) : IVec S1 32 := broadcastInDim S1 ![] Facts₀.bcast_S_S1 (constantI S_ 32 k)

theorem startAt_apply (k : BitVec 32) (i : S1.Idx) : startAt k i = k := rfl

/-! ## The three arrays as functions of the arguments, over variables -/

section Values

variable (x0 : S20480x256.Idx → Ideal .f32) (y0 : S128x128.Idx → Ideal .f32)
  (A : S128x20480.Idx → Ideal .f32) (P : S2x20480.Idx → Ideal .f32) (O : S2x128.Idx → Ideal .f32)

/-- The fused weight before narrowing: columns 0 ‥ 127 of `x0` set to `Aᵀ`, then columns 128 ‥ 129 set to `Pᵀ`. -/
def fusedVal : S20480x256.Idx → Ideal .f32 :=
  Host.scatter scatter_S20480x256_S1_S20480x2_01_n_1_0 (fun _ b => b)
    (Host.scatter scatter_S20480x256_S1_S20480x128_01_n_1_0 (fun _ b => b) x0 (startAt 0#32)
      (transpose S20480x128 [1, 0] A Facts₀.transposes_S128x20480_S20480x128_1_0))
    (startAt 128#32)
    (transpose S20480x2 [1, 0] P Facts₀.transposes_S2x20480_S20480x2_1_0)

/-- The padded output weight before narrowing: columns 0 ‥ 1 of `y0` set to `Oᵀ`. -/
def outwVal : S128x128.Idx → Ideal .f32 :=
  Host.scatter scatter_S128x128_S1_S128x2_01_n_1_0 (fun _ b => b) y0 (startAt 0#32)
    (transpose S128x2 [1, 0] O Facts₀.transposes_S2x128_S128x2_1_0)

/-- Column `a < 128` of the fused weight is row `a` of `A`: the second set misses it, the first lands on it. -/
theorem fusedVal_acc (K : Fin 20480) (n : Fin 256) (a : Fin 128) (h : n.val = a.val) :
    fusedVal x0 A P (ix2 K n) = A (ix2 a K) := by
  have ha := a.isLt
  unfold fusedVal
  rw [setPsqt_eq, setAcc_eq]
  refine (colSet_miss _ 128 (by decide) _ (startAt 128#32) 128#32 (startAt_apply _) (by decide) _ K n (Or.inl (by omega))).trans ?_
  refine (colSet_hit _ 0 (by decide) _ (startAt 0#32) 0#32 (startAt_apply _) (by decide) _ K a n (by omega)).trans ?_
  exact transpose_apply _ _ _ (ix2 K a) (ix2 a K) (fun b => match b with | ⟨0, _⟩ => rfl | ⟨1, _⟩ => rfl)

/-- Column `128 + j` of the fused weight is row `j` of `P`: the second set lands on it. -/
theorem fusedVal_psqt (K : Fin 20480) (n : Fin 256) (j : Fin 2) (h : n.val = 128 + j.val) :
    fusedVal x0 A P (ix2 K n) = P (ix2 j K) := by
  unfold fusedVal
  rw [setPsqt_eq]
  refine (colSet_hit _ 128 (by decide) _ (startAt 128#32) 128#32 (startAt_apply _) (by decide) _ K j n h).trans ?_
  exact transpose_apply _ _ _ (ix2 K j) (ix2 j K) (fun b => match b with | ⟨0, _⟩ => rfl | ⟨1, _⟩ => rfl)

/-- Column `j < 2` of the padded output weight is row `j` of `O`. -/
theorem outwVal_pad (a : Fin 128) (n : Fin 128) (j : Fin 2) (h : n.val = j.val) :
    outwVal y0 O (ix2 a n) = O (ix2 j a) := by
  unfold outwVal
  rw [setOut_eq]
  refine (colSet_hit _ 0 (by decide) _ (startAt 0#32) 0#32 (startAt_apply _) (by decide) _ a j n (by omega)).trans ?_
  exact transpose_apply _ _ _ (ix2 a j) (ix2 j a) (fun b => match b with | ⟨0, _⟩ => rfl | ⟨1, _⟩ => rfl)

end Values

/-! ## The region-entry contents -/

/-- The fused weight the region finds is `fusedVal` of the zero array and the two weight arguments, narrowed. -/
theorem V_main_v7_eq : (V m c main_v7 : S20480x256.Idx → Ideal .bf16)
    = truncf (F := Ideal) .bf16 (fusedVal (broadcastInDim S20480x256 ![] Facts₀.bcast_S_S20480x256 (constant (F := Ideal) S_ .f32 0x00000000#32))
        (m ((c : Thread nD τ).loc main_arg3)) (m ((c : Thread nD τ).loc main_arg2))) Facts₀.bitsLt_bf16_f32 := by
  unfold fusedVal
  dsimp only [Gen.V, Gen.hostOps0]
  after_results <;> rfl

/-- The padded output weight the region finds is `outwVal` of the zero array and the output weight argument, narrowed. -/
theorem V_main_v12_eq : (V m c main_v12 : S128x128.Idx → Ideal .bf16)
    = truncf (F := Ideal) .bf16 (outwVal (broadcastInDim S128x128 ![] Facts₀.bcast_S_S128x128 (constant (F := Ideal) S_ .f32 0x00000000#32))
        (m ((c : Thread nD τ).loc main_arg5))) Facts₀.bitsLt_bf16_f32 := by
  unfold outwVal
  dsimp only [Gen.V, Gen.hostOps0]
  after_results <;> rfl

/-- The bias row the region finds is the bias argument reshaped to one row. -/
theorem V_main_v13_eq : (V m c main_v13 : S1x128.Idx → Ideal .f32)
    = shapeCast S1x128 (m ((c : Thread nD τ).loc main_arg4) : S128.Idx → Ideal .f32) Facts₀.shapeCasts_S128_S1x128 := by
  dsimp only [Gen.V, Gen.hostOps0]
  after_results
  rfl

/-- Column `a < 128` of the fused weight at row `K` is the accumulator weight's element `(a, K)`. -/
theorem fused_acc (K : Fin 20480) (n : Fin 256) (a : Fin 128) (h : n.val = a.val) :
    (V m c main_v7 : S20480x256.Idx → Ideal .bf16) (ix2 K n) = m ((c : Thread nD τ).loc main_arg3) (ix2 a K) :=
  (congrFun (V_main_v7_eq m c) (ix2 K n)).trans ((truncf_apply (φ := .f32) (ψ := .bf16) _ Facts₀.bitsLt_bf16_f32 _).trans (fusedVal_acc _ _ _ K n a h))

/-- Column `128 + j` of the fused weight at row `K` is the piece-square weight's element `(j, K)`. -/
theorem fused_psqt (K : Fin 20480) (n : Fin 256) (j : Fin 2) (h : n.val = 128 + j.val) :
    (V m c main_v7 : S20480x256.Idx → Ideal .bf16) (ix2 K n) = m ((c : Thread nD τ).loc main_arg2) (ix2 j K) :=
  (congrFun (V_main_v7_eq m c) (ix2 K n)).trans ((truncf_apply (φ := .f32) (ψ := .bf16) _ Facts₀.bitsLt_bf16_f32 _).trans (fusedVal_psqt _ _ _ K n j h))

/-- Column `j < 2` of the padded output weight at row `a` is the output weight's element `(j, a)`. -/
theorem outw_pad (a : Fin 128) (n : Fin 128) (j : Fin 2) (h : n.val = j.val) :
    (V m c main_v12 : S128x128.Idx → Ideal .bf16) (ix2 a n) = m ((c : Thread nD τ).loc main_arg5) (ix2 j a) :=
  (congrFun (V_main_v12_eq m c) (ix2 a n)).trans ((truncf_apply (φ := .f32) (ψ := .bf16) _ Facts₀.bitsLt_bf16_f32 _).trans (outwVal_pad _ _ a n j h))

/-- The bias row at `(r, a)` is the bias argument's element `a`: both sit at row-major position `a`. -/
theorem bias_row (r : Fin 1) (a : Fin 128) :
    (V m c main_v13 : S1x128.Idx → Ideal .f32) (ix2 r a) = m ((c : Thread nD τ).loc main_arg4) (ix1 a) := by
  refine (congrFun (V_main_v13_eq m c) (ix2 r a)).trans ?_
  refine shapeCast_apply _ _ (ix2 r a) (ix1 a) ?_
  have hr : r.val = 0 := by omega
  rw [Shape.rowMajor_val_one, Shape.rowMajor_val_two]
  show a.val = r.val * 128 + a.val
  rw [hr, Nat.zero_mul, Nat.zero_add]

end Cert.KernelIdeal.HostPrep

end
-- ==== Proof.Final.lean ====
/-
  The kernel's result array is the specification's.

  The last step of row tile q stores, at (p, j) of its output block, the finishing arithmetic of the two scratch
  blocks. Those hold row 256·q + p of each side against the columns of the fused weight, whose columns 0 … 127 are
  the accumulator weight's rows and columns 128, 129 the piece-square weight's rows; the padded output weight's
  columns 0, 1 are the output weight's rows and the bias row is the bias. So the stored value is the specification at
  (256·q + p, j). Only a tile's last step writes its block back, the sixteen written blocks are the sixteen row tiles
  of the result array, and together they cover it.
-/
import proofs.«133950_j43525198577726_2_alg».proof.Proof.Accum
import proofs.«133950_j43525198577726_2_alg».proof.Proof.HostPrep
import proofs.«133950_j43525198577726_2_alg».proof.Proof.Spec

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Value Idealize.ShloMosaic.ValueIdx
open scoped BigOperators

variable (m : (ℓ : Loc nD τ sig) → Buf (Elt Ideal) ℓ) (ρ : Dev nD → PrngReg) (c : Dev nD)

/-- The six arguments as arrays of extended reals. -/
abbrev aW : Spec.SX.Idx → EReal := m ((c : Thread nD τ).loc main_arg0)
abbrev aB : Spec.SX.Idx → EReal := m ((c : Thread nD τ).loc main_arg1)
abbrev aP : Spec.SP.Idx → EReal := m ((c : Thread nD τ).loc main_arg2)
abbrev aA : Spec.SA.Idx → EReal := m ((c : Thread nD τ).loc main_arg3)
abbrev aBias : Spec.SB.Idx → EReal := m ((c : Thread nD τ).loc main_arg4)
abbrev aO : Spec.SO.Idx → EReal := m ((c : Thread nD τ).loc main_arg5)

/-- The result array: the specification of the arguments at launch. -/
abbrev result : Buf (Elt Ideal) ((c : Thread nD τ).loc main_v14) :=
  Spec.G (aW m c) (aB m c) (aP m c) (aA m c) (aBias m c) (aO m c)

/-- A finished scratch block's piece-square columns and accumulator columns. -/
theorem psq_w (t : Fin cfg0.N) (h4 : t.val % 5 = 4) (p : Fin 256) (j : Fin 2) (row : Fin 4096) (hrow : row.val = 256 * (t.val / 5) + p.val) :
    (outsAt0 m c t.val t.isLt).2.1 (ix2 p (Payloads.tail j)) = Spec.psq (aW m c) (aP m c) row j := by
  rw [Accum.total_w m c t h4 p (Payloads.tail j) row hrow]
  unfold Spec.psq
  refine Finset.sum_congr rfl fun k _ => ?_
  exact congrArg (fun z => Accum.sideW m c (ix2 row k) * z) (HostPrep.fused_psqt m c k (Payloads.tail j) j rfl)

theorem psq_b (t : Fin cfg0.N) (h4 : t.val % 5 = 4) (p : Fin 256) (j : Fin 2) (row : Fin 4096) (hrow : row.val = 256 * (t.val / 5) + p.val) :
    (outsAt0 m c t.val t.isLt).2.2 (ix2 p (Payloads.tail j)) = Spec.psq (aB m c) (aP m c) row j := by
  rw [Accum.total_b m c t h4 p (Payloads.tail j) row hrow]
  unfold Spec.psq
  refine Finset.sum_congr rfl fun k _ => ?_
  exact congrArg (fun z => Accum.sideB m c (ix2 row k) * z) (HostPrep.fused_psqt m c k (Payloads.tail j) j rfl)

theorem acc_w (t : Fin cfg0.N) (h4 : t.val % 5 = 4) (p : Fin 256) (a : Fin 128) (row : Fin 4096) (hrow : row.val = 256 * (t.val / 5) + p.val) :
    (outsAt0 m c t.val t.isLt).2.1 (ix2 p (Payloads.lane a)) = Spec.acc (aW m c) (aA m c) row a := by
  rw [Accum.total_w m c t h4 p (Payloads.lane a) row hrow]
  unfold Spec.acc
  refine Finset.sum_congr rfl fun k _ => ?_
  exact congrArg (fun z => Accum.sideW m c (ix2 row k) * z) (HostPrep.fused_acc m c k (Payloads.lane a) a rfl)

theorem acc_b (t : Fin cfg0.N) (h4 : t.val % 5 = 4) (p : Fin 256) (a : Fin 128) (row : Fin 4096) (hrow : row.val = 256 * (t.val / 5) + p.val) :
    (outsAt0 m c t.val t.isLt).2.2 (ix2 p (Payloads.lane a)) = Spec.acc (aB m c) (aA m c) row a := by
  rw [Accum.total_b m c t h4 p (Payloads.lane a) row hrow]
  unfold Spec.acc
  refine Finset.sum_congr rfl fun k _ => ?_
  exact congrArg (fun z => Accum.sideB m c (ix2 row k) * z) (HostPrep.fused_acc m c k (Payloads.lane a) a rfl)

/-- The clipped accumulators of a finished scratch block. -/
theorem hid_w (t : Fin cfg0.N) (h4 : t.val % 5 = 4) (p : Fin 256) (a : Fin 128) (row : Fin 4096) (hrow : row.val = 256 * (t.val / 5) + p.val) :
    Payloads.clipRow (outsAt0 m c t.val t.isLt).2.1 (iblk m c 4 t) p a = Spec.hid (aW m c) (aA m c) (aBias m c) row a := by
  unfold Payloads.clipRow Spec.hid
  rw [acc_w m c t h4 p a row hrow, Blocks.bias m c t (ix2 (0 : Fin 1) a), HostPrep.bias_row m c 0 a]

theorem hid_b (t : Fin cfg0.N) (h4 : t.val % 5 = 4) (p : Fin 256) (a : Fin 128) (row : Fin 4096) (hrow : row.val = 256 * (t.val / 5) + p.val) :
    Payloads.clipRow (outsAt0 m c t.val t.isLt).2.2 (iblk m c 4 t) p a = Spec.hid (aB m c) (aA m c) (aBias m c) row a := by
  unfold Payloads.clipRow Spec.hid
  rw [acc_b m c t h4 p a row hrow, Blocks.bias m c t (ix2 (0 : Fin 1) a), HostPrep.bias_row m c 0 a]

/-- The padded output weight block at (a, j) is the output weight at (j, a). -/
theorem out_w (t : Fin cfg0.N) (a : Fin 128) (j : Fin 2) :
    (iblk m c 3 t : Vec Ideal S128x128 .bf16) (ix2 a (Payloads.col j)) = aO m c (ix2 j a) := by
  rw [Blocks.out_weight m c t (ix2 a (Payloads.col j)), HostPrep.outw_pad m c a (Payloads.col j) j rfl]

/-- What the last step of a row tile stores at (p, j) is the specification at (256·(t div 5) + p, j). -/
theorem stored (t : Fin cfg0.N) (h4 : t.val % 5 = 4) (p : Fin 256) (j : Fin 2) (row : Fin 4096) (hrow : row.val = 256 * (t.val / 5) + p.val) :
    (outsAt0 m c t.val t.isLt).1 (ix2 p j) = Spec.out (aW m c) (aB m c) (aP m c) (aA m c) (aBias m c) (aO m c) row j := by
  rw [Accum.out_last m c t h4]
  refine (Payloads.out_apply (iblk m c 4 t) (iblk m c 3 t) (outsAt0 m c t.val t.isLt).2.1 (outsAt0 m c t.val t.isLt).2.2 p j).trans ?_
  unfold Payloads.finish Spec.out Spec.pos
  rw [psq_w m c t h4 p j row hrow, psq_b m c t h4 p j row hrow]
  simp only [hid_w m c t h4 p _ row hrow, hid_b m c t h4 p _ row hrow, out_w m c t]

theorem stored_at (t : Fin cfg0.N) (h4 : t.val % 5 = 4) (y : S256x2.Idx) (row : Fin 4096) (hrow : row.val = 256 * (t.val / 5) + (y 0).val) :
    (outsAt0 m c t.val t.isLt).1 y = Spec.out (aW m c) (aB m c) (aP m c) (aA m c) (aBias m c) (aO m c) row (y 1) := by
  obtain ⟨p, j, rfl⟩ : ∃ (p : Fin 256) (j : Fin 2), y = ix2 p j := ⟨y 0, y 1, eq_ix2 y⟩
  exact stored m c t h4 p j row hrow

/-- What a writing point writes back is its block of the result. -/
theorem flushed_eq (t : Fin cfg0.N) (hf : (cfg0.win 5).flush t = true) :
    (dats m 0 c).flushed 5 t = ((cfg0.win 5).blk t).view.read (Elt Ideal) (result m c) := by
  have h4 : t.val % 5 = 4 := (flush0_5 t).mp hf
  have hN : t.val < 80 := lt_of_lt_of_eq t.isLt (show cfg0.N = 80 from N_0)
  have hi := Blocks.block_index t
  rw [flushed5]
  funext y
  have hy0 : (y 0).val < 256 := (y 0).isLt
  show (outsAt0 m c t.val t.isLt).1 y = result m c (((cfg0.win 5).blk t).view.emb y)
  refine (stored_at m c t h4 y ⟨256 * (t.val / 5) + (y 0).val, by omega⟩ rfl).trans ?_
  have e0 : ((cfg0.win 5).blk t).view.emb y 0 = (⟨256 * (t.val / 5) + (y 0).val, by omega⟩ : Fin 4096) :=
    Fin.ext (by show win0_5.index t 0 * 256 + 1 * (y 0).val = 256 * (t.val / 5) + (y 0).val; rw [hi.2.2.2.2.2.2.2.2.2.2.1]; omega)
  have e1 : ((cfg0.win 5).blk t).view.emb y 1 = y 1 :=
    Fin.ext (by show win0_5.index t 1 * 2 + 1 * (y 1).val = (y 1).val; rw [hi.2.2.2.2.2.2.2.2.2.2.2]; omega)
  show _ = Spec.out _ _ _ _ _ _ (((cfg0.win 5).blk t).view.emb y 0) (((cfg0.win 5).blk t).view.emb y 1)
  rw [e0, e1]

/-- An index of the result array is in point t's block iff each coordinate is in the block's range on its axis. -/
theorem mem_blk (t : Fin cfg0.N) (i : S4096x2.Idx) :
    i ∈ ((cfg0.win 5).blk t).view.set ↔ ∀ a : Fin 2, win0_5.index t a * S256x2.size a ≤ (i a).val ∧ (i a).val < win0_5.index t a * S256x2.size a + S256x2.size a := by
  show i ∈ ((View.whole main_v14).slice (win0_5.rect t)).set ↔ _
  rw [View.set_slice_whole, Rect.mem_set_unit]
  exact Iff.rfl

/-- Row r of the result lies in the block the last step of row tile r div 256 writes back. -/
theorem cover (i : S4096x2.Idx) : ∃ t : Fin cfg0.N, (cfg0.win 5).flush t = true ∧ i ∈ ((cfg0.win 5).blk t).view.set := by
  have h0 : (i 0).val < 4096 := (i 0).isLt
  have h1 : (i 1).val < 2 := (i 1).isLt
  have hlt : 5 * ((i 0).val / 256) + 4 < cfg0.N := by rw [show cfg0.N = 80 from N_0]; omega
  have hi := Blocks.block_index ⟨5 * ((i 0).val / 256) + 4, hlt⟩
  refine ⟨⟨5 * ((i 0).val / 256) + 4, hlt⟩, (flush0_5 _).mpr (by show (5 * ((i 0).val / 256) + 4) % 5 = 4; omega), ?_⟩
  rw [mem_blk]
  intro a
  match a with
  | ⟨0, _⟩ =>
    show win0_5.index ⟨5 * ((i 0).val / 256) + 4, hlt⟩ 0 * 256 ≤ (i 0).val ∧ (i 0).val < win0_5.index ⟨5 * ((i 0).val / 256) + 4, hlt⟩ 0 * 256 + 256
    rw [hi.2.2.2.2.2.2.2.2.2.2.1]
    show (5 * ((i 0).val / 256) + 4) / 5 * 256 ≤ (i 0).val ∧ (i 0).val < (5 * ((i 0).val / 256) + 4) / 5 * 256 + 256
    omega
  | ⟨1, _⟩ =>
    show win0_5.index ⟨5 * ((i 0).val / 256) + 4, hlt⟩ 1 * 2 ≤ (i 1).val ∧ (i 1).val < win0_5.index ⟨5 * ((i 0).val / 256) + 4, hlt⟩ 1 * 2 + 2
    rw [hi.2.2.2.2.2.2.2.2.2.2.2]
    omega

/-- The result array after the run. -/
theorem final : (dats m 0 c).arrAt 5 cfg0.N = result m c :=
  (dats m 0 c).arrAt_eq_of_cover 5 (result m c) (flushed_eq m c) (cover)

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Final

end
-- ==== Proof.lean ====
/-
  The certificate of the fused accumulator kernel against its plain reference, on the extended reals.

  Both programs compute, for two batches w and v of 4096 feature vectors of 20480 features, a piece-square weight P
  (2 rows), an accumulator weight A (128 rows), a bias b and an output weight O (2 rows of 128),

      (w·Pᵀ − v·Pᵀ) + (clip (w·Aᵀ + b)·Oᵀ − clip (v·Aᵀ + b)·Oᵀ),        clip x = min 1 (max 0 x).

  The reference does it with four plain matrix products per side. The kernel first lays Aᵀ and Pᵀ side by side as
  columns 0 … 127 and 128, 129 of one fused weight of 256 columns, and Oᵀ as columns 0, 1 of a 128 × 128 weight; then,
  for each of 16 tiles of 256 rows, it sweeps the feature axis in 5 steps of 4096 features, adding each step's product
  of the side's block with the fused weight's block into a running sum kept between steps, and at the last step
  slices the running sums into the accumulator columns and the piece-square columns, adds the bias, clips, multiplies
  into the padded output weight and keeps its first two columns.

  On the extended reals a change of float format is the identity and every sum is exact, so the two differ only in
  how the sum over the 20480 features is grouped (zero, plus five partial sums of 4096 terms, against one sum of 20480
  terms), and regrouping a finite sum needs only that addition is commutative and associative: finiteness of the
  inputs is never used. The kernel's result array is read off its run (the running sums by induction over the steps of
  a tile, the blocks written back covering the result), the reference's off its own run, and both are the function
  `Spec.G` of the arguments.
-/
import proofs.«133950_j43525198577726_2_alg».proof.Defs
import proofs.«133950_j43525198577726_2_alg».proof.Proof.Gen.Kernel
import proofs.«133950_j43525198577726_2_alg».proof.Proof.Gen.Kernel.Skeleton
import proofs.«133950_j43525198577726_2_alg».proof.Proof.Gen.Kernel.Launch
import proofs.«133950_j43525198577726_2_alg».proof.Proof.Gen.Kernel.Points
import proofs.«133950_j43525198577726_2_alg».proof.Proof.Gen.Kernel.Frame
import proofs.«133950_j43525198577726_2_alg».proof.Proof.Gen.KernelIdeal
import proofs.«133950_j43525198577726_2_alg».proof.Proof.Gen.KernelIdeal.Skeleton
import proofs.«133950_j43525198577726_2_alg».proof.Proof.Gen.KernelIdeal.Launch
import proofs.«133950_j43525198577726_2_alg».proof.Proof.Gen.KernelIdeal.Points
import proofs.«133950_j43525198577726_2_alg».proof.Proof.Gen.KernelIdeal.Frame
import proofs.«133950_j43525198577726_2_alg».proof.Proof.Gen.ReferenceIdeal
import proofs.«133950_j43525198577726_2_alg».proof.Proof.Gen.Pre_finite_inputs
import proofs.«133950_j43525198577726_2_alg».proof.Proof.Gen.KernelIdeal.Value
import proofs.«133950_j43525198577726_2_alg».proof.Proof.Gen.ReferenceIdeal.Run
import proofs.«133950_j43525198577726_2_alg».proof.Proof.Gen.ReferenceIdeal.Read
import proofs.«133950_j43525198577726_2_alg».proof.Proof.RefSpec
import proofs.«133950_j43525198577726_2_alg».proof.Proof.Final
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel :=
  fun m ρ _ => Cert.Kernel.Gen.frame m ρ

/-- So does the kernel read on the extended reals. -/
theorem frame_kernel_ideal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments, the kernel's result array ends at the specification of its arguments
    and the reference's at the specification of its own: equal arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v22_eq, Cert.ReferenceIdeal.RefSpec.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
